-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x2048x64 : Shape := ⟨3, ![1, 2048, 64]⟩
abbrev S1x512x64 : Shape := ⟨3, ![1, 512, 64]⟩
abbrev S2048x1 : Shape := ⟨2, ![2048, 1]⟩
abbrev S2048x64 : Shape := ⟨2, ![2048, 64]⟩
abbrev S512x64 : Shape := ⟨2, ![512, 64]⟩
abbrev S2048x512 : Shape := ⟨2, ![2048, 512]⟩
abbrev S2048 : Shape := ⟨1, ![2048]⟩

abbrev nBuf : Space → Nat
  | .hbm => 8
  | .vmem => 11
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x1, .f32⟩
  | .local _ .vmem, ⟨9, _⟩ => ⟨S2048x1, .f32⟩
  | .local _ .vmem, ⟨10, _⟩ => ⟨S2048x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x16x2048x64_S64x2048x64 : S4x16x2048x64.ShapeCasts S64x2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x64 : S2048x1.Broadcasts S2048x64
  shapeCasts_S2048x64_S1x2048x64 : S2048x64.ShapeCasts S1x2048x64
  shapeCasts_S64x2048x64_S4x16x2048x64 : S64x2048x64.ShapeCasts S4x16x2048x64
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S64x2048x64.size a
  hwx0_0 : ∀ i : grid0.Coords, EltTy.bits .f32 = 32 ∨ (Rect.block (s := S64x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S64x2048x64.size a
  hwx0_1 : ∀ i : grid0.Coords, EltTy.bits .f32 = 32 ∨ (Rect.block (s := S64x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S64x2048x64.size a
  hwx0_2 : ∀ i : grid0.Coords, EltTy.bits .f32 = 32 ∨ (Rect.block (s := S64x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S64x2048x64.size a
  hwx0_3 : ∀ i : grid0.Coords, EltTy.bits .f32 = 32 ∨ (Rect.block (s := S64x2048x64) S1x2048x64.size (cc0_transform_3 i) (hinb0_3 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S_, .f32⟩
  | .hbm, ⟨11, _⟩ => ⟨S4x16x2048, .f32⟩
  | .hbm, ⟨12, _⟩ => ⟨S_, .f32⟩
  | .hbm, ⟨13, _⟩ => ⟨S4x16x2048, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Scaled dot-product attention over the extended reals, in two shapes.

  For one query row, with scores `s k` (k ranging over the 2048 keys) and one column `v k` of the
  values, the TWO-PASS form takes the row's maximum `M`, the weights `exp (s k - M)`, their sum, and
  returns `∑ k, (exp (s k - M) / ∑ j, exp (s j - M)) * v k`.  The ONLINE form sweeps the keys in four
  tiles of 512, carrying a running maximum `m`, a running normaliser `l` and a running accumulator
  `a`: a tile with scores `st` and values `vt` replaces them by
      m' = max m (max st),   l' = exp (m - m') * l + ∑ exp (st - m'),
      a' = exp (m - m') * a + ∑ exp (st - m') * vt,
  starting from `(-∞, 0, 0)`, and returns `a / l` after the last tile.
-/
import Idealize.ShloMosaic.PureOps.Ideal
import Idealize.ShloMosaic.Lib.ValueIdx

noncomputable section

open scoped BigOperators

namespace Attn

open Idealize.ShloMosaic Idealize.ShloMosaic.ValueIdx

/-- The shape of Q, K, V and of the result: batch, head, position, feature. -/
abbrev SQ : Shape := ⟨4, ![4, 16, 2048, 64]⟩

/-- The maximum of a finite family, over `-∞`. -/
def rowMax {n : ℕ} (s : Fin n → EReal) : EReal := (Finset.univ : Finset (Fin n)).fold max ⊥ s

/-- Two-pass softmax-weighted sum of `v` with scores `s`. -/
def twoPass (s v : Fin 2048 → EReal) : EReal :=
  ∑ k : Fin 2048, Ideal.div (Ideal.exp (s k - max ⊥ (rowMax s))) (0 + ∑ j : Fin 2048, Ideal.exp (s j - max ⊥ (rowMax s))) * v k

/-- The running maximum after a tile. -/
def stepM (m : EReal) (st : Fin 512 → EReal) : EReal := max m (rowMax st)

/-- The running normaliser after a tile. -/
def stepL (m l : EReal) (st : Fin 512 → EReal) : EReal :=
  Ideal.exp (m - stepM m st) * l + ∑ k : Fin 512, Ideal.exp (st k - stepM m st)

/-- The running accumulator after a tile. -/
def stepA (m a : EReal) (st vt : Fin 512 → EReal) : EReal :=
  Ideal.exp (m - stepM m st) * a + ∑ k : Fin 512, Ideal.exp (st k - stepM m st) * vt k

/-- Key `512 j + k` of a row of 2048 (the index wraps, so that `j` may be any natural number; only
    `j < 4` is ever used). -/
def tileIx (j : ℕ) (k : Fin 512) : Fin 2048 := ⟨(512 * j + k.val) % 2048, Nat.mod_lt _ (by norm_num)⟩

/-- Tile `j` of a row. -/
def tile (x : Fin 2048 → EReal) (j : ℕ) : Fin 512 → EReal := fun k => x (tileIx j k)

/-- The running maximum after tiles `0 … n`. -/
def runM (s : Fin 2048 → EReal) : ℕ → EReal
  | 0 => stepM ⊥ (tile s 0)
  | n + 1 => stepM (runM s n) (tile s (n + 1))

/-- The running normaliser after tiles `0 … n`. -/
def runL (s : Fin 2048 → EReal) : ℕ → EReal
  | 0 => stepL ⊥ 0 (tile s 0)
  | n + 1 => stepL (runM s n) (runL s n) (tile s (n + 1))

/-- The running accumulator after tiles `0 … n`. -/
def runA (s v : Fin 2048 → EReal) : ℕ → EReal
  | 0 => stepA ⊥ 0 (tile s 0) (tile v 0)
  | n + 1 => stepA (runM s n) (runA s v n) (tile s (n + 1)) (tile v (n + 1))

/-- The online form's result: accumulator over normaliser after the fourth tile. -/
def online (s v : Fin 2048 → EReal) : EReal := Ideal.div (runA s v 3) (runL s 3)

/-- The score of query `q` against key `k` in batch `b`, head `h`: the dot product over the 64 features,
    times `c` (the kernel's literal 4096). -/
def score (c : EReal) (Q K : SQ.Idx → EReal) (b : Fin 4) (h : Fin 16) (q k : Fin 2048) : EReal :=
  (∑ d : Fin 64, Q (ix4 b h q d) * K (ix4 b h k d)) * c

/-- Column `d` of the values of batch `b`, head `h`. -/
def vcol (V : SQ.Idx → EReal) (b : Fin 4) (h : Fin 16) (d : Fin 64) : Fin 2048 → EReal := fun k => V (ix4 b h k d)

/-- Attention, online form, at one index of the result. -/
def attnOnline (c : EReal) (Q K V : SQ.Idx → EReal) (i : SQ.Idx) : EReal :=
  online (score c Q K (i 0) (i 1) (i 2)) (vcol V (i 0) (i 1) (i 3))

/-- Attention, two-pass form, at one index of the result. -/
def attnTwoPass (c : EReal) (Q K V : SQ.Idx → EReal) (i : SQ.Idx) : EReal :=
  twoPass (score c Q K (i 0) (i 1) (i 2)) (vcol V (i 0) (i 1) (i 3))

end Attn

end
-- ==== Proof.OnlineSoftmax.lean ====
/-
  The online (tiled, running-maximum) softmax-weighted sum equals the two-pass one on real inputs.

  Write the scores as reals `sr k` and the values as reals `vr k`.  The proof has three parts.

  1. The running maximum after the fourth tile is the maximum of the whole row.  This is a statement
     about least upper bounds only: `runM s n ≤ c` exactly when every key of tiles `0 … n` is `≤ c`,
     and the four tiles cover every key.
  2. After tiles `0 … n` the running maximum is some real `m`, and the running normaliser and
     accumulator are the real sums, over the keys of those tiles, of `exp (sr k - m)` and of
     `exp (sr k - m) * vr k`.  The first tile starts from `-∞`, whose exponential weight is `0`; a
     later tile rescales the sums so far by `exp (m - m')`, and
     `exp (m - m') * exp (x - m) = exp (x - m')` — an identity that holds for any `m'`, so this part
     never needs to know that `m` is a maximum.
  3. The sums over the four tiles are the sums over the row, the normaliser is positive, and the
     quotient of the two sums is the sum of the quotients.
-/
import proofs.«132326_j64252710748215_2_alg».proof.Proof.Spec

noncomputable section

open scoped BigOperators

namespace Attn

open Idealize.ShloMosaic

/-! ### Finite sums and maxima of real families inside the extended reals -/

/-- A finite sum of coercions of reals is the coercion of the real sum. -/
theorem coe_sum {ι : Type*} (t : Finset ι) (f : ι → ℝ) :
    (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- The maximum of a family is its least upper bound. -/
theorem rowMax_le_iff {n : ℕ} (s : Fin n → EReal) (c : EReal) : rowMax s ≤ c ↔ ∀ k, s k ≤ c := by
  unfold rowMax
  rw [Finset.fold_max_le]
  simp

/-- Each member is below the maximum. -/
theorem le_rowMax {n : ℕ} (s : Fin n → EReal) (k : Fin n) : s k ≤ rowMax s :=
  (rowMax_le_iff s _).1 le_rfl k

/-- The maximum of a tile of reals is a real: it is above a real, and below `+∞` strictly. -/
theorem rowMax_coe (t : Fin 512 → ℝ) : ∃ mt : ℝ, rowMax (fun k => (t k : EReal)) = (mt : EReal) := by
  have hbot : rowMax (fun k => (t k : EReal)) ≠ ⊥ := by
    intro h
    have h0 := le_rowMax (fun k => (t k : EReal)) 0
    rw [h] at h0
    exact EReal.coe_ne_bot _ (le_bot_iff.1 h0)
  have htop : rowMax (fun k => (t k : EReal)) ≠ ⊤ := by
    apply ne_of_lt
    unfold rowMax
    rw [Finset.fold_max_lt]
    exact ⟨bot_lt_top, fun k _ => EReal.coe_lt_top _⟩
  exact ⟨_, (EReal.coe_toReal htop hbot).symm⟩

/-! ### The running maximum is the row's maximum -/

/-- The running maximum after tiles `0 … n` is the least upper bound of their keys. -/
theorem runM_le_iff (s : Fin 2048 → EReal) (n : ℕ) (c : EReal) :
    runM s n ≤ c ↔ ∀ j ≤ n, ∀ k, s (tileIx j k) ≤ c := by
  induction n with
  | zero =>
    rw [runM, stepM, max_le_iff, rowMax_le_iff]
    constructor
    · rintro ⟨_, h⟩ j hj k
      obtain rfl : j = 0 := Nat.le_zero.1 hj
      exact h k
    · intro h
      exact ⟨bot_le, fun k => h 0 le_rfl k⟩
  | succ n ih =>
    rw [runM, stepM, max_le_iff, rowMax_le_iff, ih]
    constructor
    · rintro ⟨h1, h2⟩ j hj k
      rcases Nat.le_succ_iff.1 hj with h | rfl
      · exact h1 j h k
      · exact h2 k
    · intro h
      exact ⟨fun j hj k => h j (Nat.le_succ_of_le hj) k, fun k => h (n + 1) le_rfl k⟩

/-- Every key lies in one of the four tiles: key `i` is key `i % 512` of tile `i / 512`. -/
theorem exists_tileIx (i : Fin 2048) : ∃ j ≤ 3, ∃ k : Fin 512, tileIx j k = i := by
  have hi := i.isLt
  refine ⟨i.val / 512, by omega, ⟨i.val % 512, Nat.mod_lt _ (by norm_num)⟩, ?_⟩
  apply Fin.ext
  show (512 * (i.val / 512) + i.val % 512) % 2048 = i.val
  omega

/-- After the fourth tile the running maximum is the maximum of the row. -/
theorem runM_three (s : Fin 2048 → EReal) : runM s 3 = max ⊥ (rowMax s) := by
  apply eq_of_forall_ge_iff
  intro c
  rw [runM_le_iff, max_le_iff, rowMax_le_iff]
  constructor
  · intro h
    refine ⟨bot_le, fun i => ?_⟩
    obtain ⟨j, hj, k, rfl⟩ := exists_tileIx i
    exact h j hj k
  · rintro ⟨_, h⟩ j _ k
    exact h _

/-! ### One tile's update on real data -/

/-- The first tile, from `(-∞, 0, 0)`: the old sums carry the weight `exp (-∞) = 0`, so the results
    are the tile's own sums, relative to the tile's maximum. -/
theorem step_bot (t u : Fin 512 → ℝ) :
    ∃ m' : ℝ, stepM ⊥ (fun k => (t k : EReal)) = (m' : EReal) ∧
      stepL ⊥ 0 (fun k => (t k : EReal)) = ((∑ k, Real.exp (t k - m') : ℝ) : EReal) ∧
      stepA ⊥ 0 (fun k => (t k : EReal)) (fun k => (u k : EReal))
        = ((∑ k, Real.exp (t k - m') * u k : ℝ) : EReal) := by
  obtain ⟨mt, hmt⟩ := rowMax_coe t
  have hm' : stepM ⊥ (fun k => (t k : EReal)) = (mt : EReal) := by
    unfold stepM
    rw [hmt]
    exact max_eq_right bot_le
  refine ⟨mt, hm', ?_, ?_⟩
  · unfold stepL
    rw [hm', EReal.bot_sub, Ideal.exp_bot, zero_mul, zero_add]
    simp only [← EReal.coe_sub, Ideal.exp_coe, coe_sum]
  · unfold stepA
    rw [hm', EReal.bot_sub, Ideal.exp_bot, zero_mul, zero_add]
    simp only [← EReal.coe_sub, Ideal.exp_coe, ← EReal.coe_mul, coe_sum]

/-- A later tile, from a real running maximum `m` and real sums: the new maximum `m'` is real, and
    the new sums are given by the same formulas over the reals. -/
theorem step_coe (m : ℝ) (t u : Fin 512 → ℝ) :
    ∃ m' : ℝ, stepM (m : EReal) (fun k => (t k : EReal)) = (m' : EReal) ∧
      (∀ l : ℝ, stepL (m : EReal) (l : EReal) (fun k => (t k : EReal))
        = ((Real.exp (m - m') * l + ∑ k, Real.exp (t k - m') : ℝ) : EReal)) ∧
      (∀ a : ℝ, stepA (m : EReal) (a : EReal) (fun k => (t k : EReal)) (fun k => (u k : EReal))
        = ((Real.exp (m - m') * a + ∑ k, Real.exp (t k - m') * u k : ℝ) : EReal)) := by
  obtain ⟨mt, hmt⟩ := rowMax_coe t
  have hM : ∃ m' : ℝ, stepM (m : EReal) (fun k => (t k : EReal)) = (m' : EReal) := by
    unfold stepM
    rw [hmt]
    rcases max_choice (m : EReal) (mt : EReal) with h | h
    · exact ⟨m, h⟩
    · exact ⟨mt, h⟩
  obtain ⟨m', hm'⟩ := hM
  refine ⟨m', hm', fun l => ?_, fun a => ?_⟩
  · unfold stepL
    rw [hm']
    simp only [← EReal.coe_sub, Ideal.exp_coe, ← EReal.coe_mul, coe_sum, ← EReal.coe_add]
  · unfold stepA
    rw [hm']
    simp only [← EReal.coe_sub, Ideal.exp_coe, ← EReal.coe_mul, coe_sum, ← EReal.coe_add]

/-- Changing the reference point of weighted exponential sums from `m` to `m'` multiplies them by
    `exp (m - m')`; adding the next tile's sum, taken relative to `m'`, extends the range by one. -/
theorem rescale_add (x w : ℕ → Fin 512 → ℝ) (m m' : ℝ) (n : ℕ) :
    Real.exp (m - m') * (∑ j ∈ Finset.range (n + 1), ∑ k, Real.exp (x j k - m) * w j k)
        + ∑ k, Real.exp (x (n + 1) k - m') * w (n + 1) k
      = ∑ j ∈ Finset.range (n + 1 + 1), ∑ k, Real.exp (x j k - m') * w j k := by
  rw [Finset.sum_range_succ _ (n + 1), Finset.mul_sum]
  congr 1
  refine Finset.sum_congr rfl fun j _ => ?_
  rw [Finset.mul_sum]
  refine Finset.sum_congr rfl fun k _ => ?_
  rw [← mul_assoc, ← Real.exp_add]
  congr 2
  ring

/-- The same without weights. -/
theorem rescale_add_one (x : ℕ → Fin 512 → ℝ) (m m' : ℝ) (n : ℕ) :
    Real.exp (m - m') * (∑ j ∈ Finset.range (n + 1), ∑ k, Real.exp (x j k - m))
        + ∑ k, Real.exp (x (n + 1) k - m')
      = ∑ j ∈ Finset.range (n + 1 + 1), ∑ k, Real.exp (x j k - m') := by
  simpa using rescale_add x (fun _ _ => 1) m m' n

/-! ### The running values after tiles `0 … n` -/

/-- After tiles `0 … n` the running maximum is a real `m`, and the running normaliser and accumulator
    are the sums over those tiles' keys of `exp (sr k - m)` and of `exp (sr k - m) * vr k`. -/
theorem run_invariant (sr vr : Fin 2048 → ℝ) (n : ℕ) :
    ∃ m : ℝ, runM (fun k => (sr k : EReal)) n = (m : EReal) ∧
      runL (fun k => (sr k : EReal)) n
        = ((∑ j ∈ Finset.range (n + 1), ∑ k : Fin 512, Real.exp (sr (tileIx j k) - m) : ℝ) : EReal) ∧
      runA (fun k => (sr k : EReal)) (fun k => (vr k : EReal)) n
        = ((∑ j ∈ Finset.range (n + 1), ∑ k : Fin 512,
            Real.exp (sr (tileIx j k) - m) * vr (tileIx j k) : ℝ) : EReal) := by
  induction n with
  | zero =>
    obtain ⟨m', h1, h2, h3⟩ := step_bot (fun k => sr (tileIx 0 k)) (fun k => vr (tileIx 0 k))
    refine ⟨m', h1, ?_, ?_⟩
    · simp only [zero_add, Finset.sum_range_one]
      exact h2
    · simp only [zero_add, Finset.sum_range_one]
      exact h3
  | succ n ih =>
    obtain ⟨m, hM, hL, hA⟩ := ih
    obtain ⟨m', h1, h2, h3⟩ :=
      step_coe m (fun k => sr (tileIx (n + 1) k)) (fun k => vr (tileIx (n + 1) k))
    refine ⟨m', ?_, ?_, ?_⟩
    · rw [runM, hM]
      exact h1
    · rw [runL, hM, hL]
      refine (h2 _).trans (congrArg Real.toEReal ?_)
      exact rescale_add_one (fun j k => sr (tileIx j k)) m m' n
    · rw [runA, hM, hA]
      refine (h3 _).trans (congrArg Real.toEReal ?_)
      exact rescale_add (fun j k => sr (tileIx j k)) (fun j k => vr (tileIx j k)) m m' n

/-! ### The four tiles make up the row -/

/-- A sum over the four tiles is the sum over the row: `(j, k) ↦ 512 j + k` is a bijection from
    `{0,…,3} × {0,…,511}` onto the 2048 keys. -/
theorem sum_tiles (f : Fin 2048 → ℝ) :
    ∑ j ∈ Finset.range 4, ∑ k : Fin 512, f (tileIx j k) = ∑ i : Fin 2048, f i := by
  rw [Finset.sum_range, ← Fintype.sum_prod_type']
  refine Fintype.sum_equiv (finProdFinEquiv (m := 4) (n := 512)) _ _ fun x => ?_
  congr 1
  apply Fin.ext
  have h1 := x.1.isLt
  have h2 := x.2.isLt
  show (512 * x.1.val + x.2.val) % 2048 = x.2.val + 512 * x.1.val
  omega

/-! ### The theorem -/

/-- On real scores and values the online form and the two-pass form agree. -/
theorem online_eq_twoPass (s v : Fin 2048 → EReal) (hs : ∀ k, ∃ r : ℝ, s k = (r : EReal))
    (hv : ∀ k, ∃ r : ℝ, v k = (r : EReal)) : online s v = twoPass s v := by
  choose sr hsr using hs
  choose vr hvr using hv
  obtain rfl : s = fun k => (sr k : EReal) := funext hsr
  obtain rfl : v = fun k => (vr k : EReal) := funext hvr
  obtain ⟨m, hM, hL, hA⟩ := run_invariant sr vr 3
  have hmax : max ⊥ (rowMax fun k => (sr k : EReal)) = (m : EReal) := by
    rw [← runM_three, hM]
  have hL' : runL (fun k => (sr k : EReal)) 3 = ((∑ i, Real.exp (sr i - m) : ℝ) : EReal) :=
    hL.trans (congrArg Real.toEReal (sum_tiles fun i => Real.exp (sr i - m)))
  have hA' : runA (fun k => (sr k : EReal)) (fun k => (vr k : EReal)) 3
      = ((∑ i, Real.exp (sr i - m) * vr i : ℝ) : EReal) :=
    hA.trans (congrArg Real.toEReal (sum_tiles fun i => Real.exp (sr i - m) * vr i))
  have hpos : 0 < ∑ i, Real.exp (sr i - m) :=
    Finset.sum_pos (fun i _ => Real.exp_pos _) Finset.univ_nonempty
  unfold online twoPass
  rw [hA', hL', hmax]
  simp only [← EReal.coe_sub, Ideal.exp_coe, coe_sum, zero_add, Ideal.div_coe hpos.ne',
    ← EReal.coe_mul]
  refine congrArg Real.toEReal ?_
  rw [Finset.sum_mul]
  exact Finset.sum_congr rfl fun k _ => by ring

end Attn

end
-- ==== Proof.RefSide.lean ====
/-
  The reference program, read at an index, is two-pass attention.

  The reference computes, for a query row with scores `s k = (∑ d, Q[b,h,q,d] * K[b,h,k,d]) / (1 / (64 * 64))`,
  the row maximum `M = max (-∞) (max over k of s k)`, the weights `exp (s k - M)`, their sum from `0`, the quotients
  `exp (s k - M) / (0 + ∑ j, exp (s j - M))`, and the result `∑ k, quotient k * V[b,h,k,d]`.  Dividing an extended real by
  the finite non-zero `1 / 4096` is multiplying it by `4096`, so the scores are those of `Attn.score` at the constant whose
  pattern `0x45800000` denotes `4096`, and the result at `(b, h, q, d)` is `Attn.twoPass` of that row of scores and of
  column `d` of the values.
-/
import proofs.«132326_j64252710748215_2_alg».proof.Proof.Gen.ReferenceIdeal.Read
import proofs.«132326_j64252710748215_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The four constants -/

/-- The pattern `0x3F800000` denotes `1`. -/
theorem ofBits_one : Ideal.ofBits .f32 0x3F800000#32 = 1 := by
  simp [Ideal.ofBits, Ideal.ieee, -EReal.coe_mul]; norm_num

/-- The pattern `0x42800000` denotes `64 = 2 ^ 6`. -/
theorem ofBits_64 : Ideal.ofBits .f32 0x42800000#32 = ((64 : ℝ) : EReal) := by
  simp [Ideal.ofBits, Ideal.ieee, -EReal.coe_mul]; norm_num

/-- The pattern `0x45800000` denotes `4096 = 2 ^ 12`. -/
theorem ofBits_4096 : Ideal.ofBits .f32 0x45800000#32 = ((4096 : ℝ) : EReal) := by
  simp [Ideal.ofBits, Ideal.ieee, -EReal.coe_mul]; norm_num

/-- The pattern `0xFF800000` denotes `-∞`. -/
theorem ofBits_negInf : Ideal.ofBits .f32 0xFF800000#32 = ⊥ := by
  simp [Ideal.ofBits, Ideal.ieee]

/-! ## The operand indices, by coordinates -/

/-- The first product's left operand at result index `(b, h, q, k)` and feature `d` is read at `(b, h, q, d)`. -/
theorem lidx_v2 (b : Fin 4) (h : Fin 16) (q k : Fin 2048) (d : Fin 64) :
    lidx_main_v2 (ix4 b h q k) d = ix4 b h q d := by
  funext a; match a with | ⟨0, _⟩ => rfl | ⟨1, _⟩ => rfl | ⟨2, _⟩ => rfl | ⟨3, _⟩ => rfl

/-- … and its right operand at `(b, h, k, d)`. -/
theorem ridx_v2 (b : Fin 4) (h : Fin 16) (q k : Fin 2048) (d : Fin 64) :
    ridx_main_v2 (ix4 b h q k) d = ix4 b h k d := by
  funext a; match a with | ⟨0, _⟩ => rfl | ⟨1, _⟩ => rfl | ⟨2, _⟩ => rfl | ⟨3, _⟩ => rfl

/-- The two broadcasts that carry a row's maximum back over the keys read it at `(b, h, q)`. -/
theorem idx_v8_v9 (b : Fin 4) (h : Fin 16) (q k : Fin 2048) :
    idx_main_v8 (idx_main_v9 (ix4 b h q k)) = ix3 b h q := by
  funext a; match a with | ⟨0, _⟩ => rfl | ⟨1, _⟩ => rfl | ⟨2, _⟩ => rfl

/-- The two broadcasts that carry a row's sum back over the keys read it at `(b, h, q)`. -/
theorem idx_v13_v14 (b : Fin 4) (h : Fin 16) (q k : Fin 2048) :
    idx_main_v13 (idx_main_v14 (ix4 b h q k)) = ix3 b h q := by
  funext a; match a with | ⟨0, _⟩ => rfl | ⟨1, _⟩ => rfl | ⟨2, _⟩ => rfl

/-- The sum over the keys of row `(b, h, q)` reads key `j` at `(b, h, q, j)`. -/
theorem idx_v12 (b : Fin 4) (h : Fin 16) (q j : Fin 2048) :
    idx_main_v12 (ix3 b h q) j = ix4 b h q j := by
  funext a; match a with | ⟨0, _⟩ => rfl | ⟨1, _⟩ => rfl | ⟨2, _⟩ => rfl | ⟨3, _⟩ => rfl

/-- The second product's left operand at result index `(b, h, q, d)` and key `k` is read at `(b, h, q, k)`. -/
theorem lidx_v16 (b : Fin 4) (h : Fin 16) (q : Fin 2048) (d : Fin 64) (k : Fin 2048) :
    lidx_main_v16 (ix4 b h q d) k = ix4 b h q k := by
  funext a; match a with | ⟨0, _⟩ => rfl | ⟨1, _⟩ => rfl | ⟨2, _⟩ => rfl | ⟨3, _⟩ => rfl

/-- … and its right operand at `(b, h, k, d)`. -/
theorem ridx_v16 (b : Fin 4) (h : Fin 16) (q : Fin 2048) (d : Fin 64) (k : Fin 2048) :
    ridx_main_v16 (ix4 b h q d) k = ix4 b h k d := by
  funext a; match a with | ⟨0, _⟩ => rfl | ⟨1, _⟩ => rfl | ⟨2, _⟩ => rfl | ⟨3, _⟩ => rfl

/-- Row `(b, h, q)` with key coordinate `k` inserted on the last axis is `(b, h, q, k)`. -/
theorem lift_ix3 (hr : S4x16x2048x2048.Reduces [3] S4x16x2048) (b : Fin 4) (h : Fin 16) (q : Fin 2048)
    (k : Fin (S4x16x2048x2048.size 3)) : hr.lift (ix3 b h q) k = ix4 b h q (⟨k.val, k.isLt⟩ : Fin 2048) := by
  funext c; apply Fin.ext
  fin_cases c <;> rfl

/-! ## The scale -/

/-- The scalar the scores are divided by is `1 / (64 * 64) = 4096⁻¹`. -/
theorem v1_eq (i : S_.Idx) : val_main_v1 (F := Ideal) i = (((4096 : ℝ)⁻¹ : ℝ) : EReal) := by
  rw [val_main_v1_apply, val_main_cst_0_apply, val_main_v0_apply, val_main_cst_apply]
  simp only [Ideal.ofBits_def, Ideal.mulf_def, Ideal.hostDivf_def]
  rw [ofBits_one, ofBits_64, ← EReal.coe_mul, Ideal.div, if_neg (by norm_num), ← EReal.coe_inv, one_mul]
  norm_num

/-- Dividing by `4096⁻¹` multiplies by `4096`, for EVERY extended real `x` (the infinities included): the divisor is
    finite and not zero, so the quotient is `x` times its inverse, and the inverse of `4096⁻¹` is `4096`. -/
theorem div_v1 (x : EReal) (i : S_.Idx) :
    Ideal.div x (val_main_v1 (F := Ideal) i) = x * Ideal.ofBits .f32 0x45800000#32 := by
  rw [v1_eq, ofBits_4096, Ideal.div, if_neg (by norm_num), ← EReal.coe_inv, inv_inv]

/-- The scaled scores: at `(b, h, q, k)` the dot product of query `q` and key `k` over the 64 features, times `4096`. -/
theorem scale_eq (Q K : (⟨S4x16x2048x64, .f32⟩ : BufTy).Contents (Elt Ideal)) (b : Fin 4) (h : Fin 16) (q k : Fin 2048) :
    val_main_v4 (F := Ideal) Q K (ix4 b h q k) = Attn.score (Ideal.ofBits .f32 0x45800000#32) Q K b h q k := by
  rw [val_main_v4_apply, val_main_v3_apply, val_main_v2_apply, Ideal.hostDivf_def, div_v1]
  unfold Attn.score
  simp only [lidx_v2, ridx_v2]

/-! ## The row maximum -/

/-- The reduction with a maximum body over the keys, from `-∞`: at row `(b, h, q)` the fold of `max` from `-∞` over the
    row's scores (`max` commutes and associates, so the fold over the row's index set is the fold over the key
    coordinate). -/
theorem v5_eq (Q K : (⟨S4x16x2048x64, .f32⟩ : BufTy).Contents (Elt Ideal)) (b : Fin 4) (h : Fin 16) (q : Fin 2048) :
    val_main_v5 (F := Ideal) Q K (ix3 b h q) = Attn.rowMax (Attn.score (Ideal.ofBits .f32 0x45800000#32) Q K b h q) := by
  have hr : S4x16x2048x2048.Reduces [3] S4x16x2048 := by decide
  unfold val_main_v5
  rw [Host.reduce_eq_fold_single FloatOps.maximumf _ _ reducesTo_S4x16x2048x2048_S4x16x2048_d3 hr h_S_]
  rw [val_main_cst_1_apply, Ideal.ofBits_def, ofBits_negInf]
  have hf : (val_main_v4 (F := Ideal) Q K ∘ hr.lift (ix3 b h q))
      = Attn.score (Ideal.ofBits .f32 0x45800000#32) Q K b h q := funext fun k => by
    show val_main_v4 (F := Ideal) Q K (hr.lift (ix3 b h q) k) = _
    rw [lift_ix3, scale_eq]
    rfl
  rw [hf]
  rfl

/-- The maximum against a broadcast `-∞`: `max (-∞) (row maximum)`, kept in that form. -/
theorem v7_eq (Q K : (⟨S4x16x2048x64, .f32⟩ : BufTy).Contents (Elt Ideal)) (b : Fin 4) (h : Fin 16) (q : Fin 2048) :
    val_main_v7 (F := Ideal) Q K (ix3 b h q)
      = max ⊥ (Attn.rowMax (Attn.score (Ideal.ofBits .f32 0x45800000#32) Q K b h q)) := by
  rw [val_main_v7_apply, val_main_v6_apply, val_main_cst_2_apply, v5_eq, Ideal.maximumf_def, Ideal.ofBits_def,
    ofBits_negInf]

/-! ## The weights, their sum, the quotients -/

/-- The weight of key `k`: `exp (s k - M)`. -/
theorem v11_eq (Q K : (⟨S4x16x2048x64, .f32⟩ : BufTy).Contents (Elt Ideal)) (b : Fin 4) (h : Fin 16) (q k : Fin 2048) :
    val_main_v11 (F := Ideal) Q K (ix4 b h q k)
      = Ideal.exp (Attn.score (Ideal.ofBits .f32 0x45800000#32) Q K b h q k
          - max ⊥ (Attn.rowMax (Attn.score (Ideal.ofBits .f32 0x45800000#32) Q K b h q))) := by
  rw [val_main_v11_apply, val_main_v10_apply, val_main_v9_apply, val_main_v8_apply, idx_v8_v9, v7_eq, scale_eq,
    Ideal.hostUnary_exp_def, Ideal.subf_def]

/-- The row's normaliser: `0 + ∑ j, exp (s j - M)`. -/
theorem v12_eq (Q K : (⟨S4x16x2048x64, .f32⟩ : BufTy).Contents (Elt Ideal)) (b : Fin 4) (h : Fin 16) (q : Fin 2048) :
    val_main_v12 (F := Ideal) Q K (ix3 b h q)
      = 0 + ∑ j : Fin 2048, Ideal.exp (Attn.score (Ideal.ofBits .f32 0x45800000#32) Q K b h q j
          - max ⊥ (Attn.rowMax (Attn.score (Ideal.ofBits .f32 0x45800000#32) Q K b h q))) := by
  rw [val_main_v12_apply, val_main_cst_3_apply, Ideal.ofBits_def, Ideal.ofBits_zero_f32]
  simp only [idx_v12, v11_eq]

/-- The normalised weight of key `k`: the weight over the normaliser. -/
theorem v15_eq (Q K : (⟨S4x16x2048x64, .f32⟩ : BufTy).Contents (Elt Ideal)) (b : Fin 4) (h : Fin 16) (q k : Fin 2048) :
    val_main_v15 (F := Ideal) Q K (ix4 b h q k)
      = Ideal.div (Ideal.exp (Attn.score (Ideal.ofBits .f32 0x45800000#32) Q K b h q k
            - max ⊥ (Attn.rowMax (Attn.score (Ideal.ofBits .f32 0x45800000#32) Q K b h q))))
          (0 + ∑ j : Fin 2048, Ideal.exp (Attn.score (Ideal.ofBits .f32 0x45800000#32) Q K b h q j
            - max ⊥ (Attn.rowMax (Attn.score (Ideal.ofBits .f32 0x45800000#32) Q K b h q)))) := by
  rw [val_main_v15_apply, val_main_v14_apply, val_main_v13_apply, idx_v13_v14, v12_eq, v11_eq, Ideal.hostDivf_def]

/-! ## The result -/

/-- The reference's result at an index is the two-pass attention of the specification there, with the scale `4096`. -/
theorem ref_eq (Q K V : (⟨S4x16x2048x64, .f32⟩ : BufTy).Contents (Elt Ideal)) (i : S4x16x2048x64.Idx) :
    Read.val_main_v16 (F := Ideal) Q K V i = Attn.attnTwoPass (Ideal.ofBits .f32 0x45800000#32) Q K V i := by
  obtain ⟨b, h, q, d, rfl⟩ : ∃ b h q d, i = ix4 b h q d := ⟨i 0, i 1, i 2, i 3, eq_ix4 i⟩
  rw [val_main_v16_apply]
  unfold Attn.attnTwoPass Attn.twoPass
  refine Finset.sum_congr rfl fun k _ => ?_
  rw [lidx_v16, ridx_v16, v15_eq]
  rfl

end Cert.ReferenceIdeal.RefValue

end
-- ==== Proof.Finite.lean ====
/-
  From the precondition to real entries.

  The precondition is the conjunction, over the three arguments, of "every entry's absolute value is below +∞".  An
  extended real whose absolute value `max x (-x)` is strictly below `+∞` is neither infinity, hence a real number.  From
  real entries: a score — a sum of 64 products of entries, times a real scale — is a real, and so is every entry of a
  column of the values.
-/
import proofs.«132326_j64252710748215_2_alg».proof.Proof.Gen.Pre_finite_inputs
import proofs.«132326_j64252710748215_2_alg».proof.Proof.Spec
import Idealize.ShloMosaic.Lib.ReduceAll
import Idealize.ShloMosaic.Lib.ValueIdx

noncomputable section

open scoped BigOperators

namespace Cert.Finite

open Idealize.ShloMosaic Idealize.ShloMosaic.ValueIdx Cert.Pre_finite_inputs

variable [Cert.Pre_finite_inputs.Facts]
open Cert.Pre_finite_inputs.Facts

/-- The scalar shape has one index. -/
instance : Subsingleton Cert.Pre_finite_inputs.S_.Idx := ⟨fun a b => funext fun d => d.elim0⟩

/-! ## One entry -/

/-- An extended real whose absolute value compares strictly below the pattern `0x7F800000` (which denotes `+∞`) is a
    real: at `-∞` and at `+∞` the absolute value is `+∞`, which is not below itself. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exact absurd h (by simp [Ideal.cmp])
  | top => exact absurd h (by simp [Ideal.cmp])
  | coe r => exact ⟨r, rfl⟩

/-! ## One argument -/

/-- If the conjunction over all entries of "the absolute value is below +∞" holds of an array, each entry is a real. -/
theorem all_real (X : FVec Ideal S4x16x2048x64 .f32)
    (e : Host.reduce IntOp.andi
        (cmpf .olt (Host.absf X)
          (broadcastInDim S4x16x2048x64 ![] bcast_S_S4x16x2048x64 (constant (F := Ideal) S_ .f32 0x7F800000#32)))
        (constantI S_ 1 1#1) reducesTo_S4x16x2048x64_S_d0_1_2_3 h_S_ ix0 = 1#1)
    (i : S4x16x2048x64.Idx) : ∃ r : ℝ, X i = (r : EReal) :=
  real_of_abs_lt (X i) (Host.reduce_andi_all _ _ _ _ _ e i)

/-! ## The precondition -/

/-- Under the precondition every entry of the three arguments is a real. -/
theorem real_of_pre (Q K V : Attn.SQ.Idx → EReal)
    (h : Cert.Pre_finite_inputs.fn (F := Ideal) Q K V = (fun _ => 1#1)) :
    (∀ i, ∃ r : ℝ, Q i = (r : EReal)) ∧ (∀ i, ∃ r : ℝ, K i = (r : EReal)) ∧ (∀ i, ∃ r : ℝ, V i = (r : EReal)) := by
  have h0 := congrFun h ValueIdx.ix0
  dsimp only [Cert.Pre_finite_inputs.fn] at h0
  obtain ⟨h38, h12⟩ := IntOp.andi_eq_one.1 h0
  obtain ⟨h3, h7⟩ := IntOp.andi_eq_one.1 h38
  exact ⟨all_real Q h3, all_real K h7, all_real V h12⟩

/-! ## Scores and value columns of real arrays -/

/-- A finite sum of reals, taken in the extended reals, is the real sum. -/
theorem coe_sum_real {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- With real queries and keys and a real scale, every score is a real. -/
theorem score_real (c : ℝ) (Q K : Attn.SQ.Idx → EReal) (hQ : ∀ i, ∃ r : ℝ, Q i = (r : EReal))
    (hK : ∀ i, ∃ r : ℝ, K i = (r : EReal)) (b : Fin 4) (h : Fin 16) (q k : Fin 2048) :
    ∃ r : ℝ, Attn.score (c : EReal) Q K b h q k = (r : EReal) := by
  choose fq hfq using hQ
  choose fk hfk using hK
  refine ⟨(∑ d : Fin 64, fq (ix4 b h q d) * fk (ix4 b h k d)) * c, ?_⟩
  unfold Attn.score
  simp only [hfq, hfk, ← EReal.coe_mul]
  rw [coe_sum_real, ← EReal.coe_mul]

/-- With real values, every entry of a column of the values is a real. -/
theorem vcol_real (V : Attn.SQ.Idx → EReal) (hV : ∀ i, ∃ r : ℝ, V i = (r : EReal)) (b : Fin 4) (h : Fin 16)
    (d : Fin 64) (k : Fin 2048) : ∃ r : ℝ, Attn.vcol V b h d k = (r : EReal) :=
  hV (ix4 b h k d)

end Cert.Finite

end
-- ==== Proof.KBlocks.lean ====
/-
  Where each window's block sits in the arguments.  Grid point `t` of the 64 × 4 grid works on
  batch·head `t / 4` and key tile `t % 4`: the query window's block is the whole [2048, 64] slab of
  that batch·head, the key and value windows' blocks are rows `512 (t % 4) … 512 (t % 4) + 511` of it.
  The arrays the region finds are the arguments with batch and head merged ([4, 16, …] read as [64, …]),
  so batch·head `p` is batch `p / 16`, head `p % 16`.
-/
import proofs.«132326_j64252710748215_2_alg».proof.Proof.Gen.KernelIdeal.Frame
import proofs.«132326_j64252710748215_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The batch of grid point `n`. -/
def bOf (n : ℕ) : Fin 4 := ⟨n / 64 % 4, Nat.mod_lt _ (by norm_num)⟩
/-- The head of grid point `n`. -/
def hOf (n : ℕ) : Fin 16 := ⟨n / 4 % 16, Nat.mod_lt _ (by norm_num)⟩

/-- The printed index maps over the grid: every window's block index on the merged batch·head axis is
    `t / 4`; the key and value windows' on the position axis is `t % 4`; all others are zero. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- Merging batch and head: entry (p, r, d) of the [64, 2048, 64] reading is entry (p / 16, p % 16, r, d). -/
theorem merge_apply {α : Type} (x : S4x16x2048x64.Idx → α) (p : Fin 64) (r : Fin 2048) (d : Fin 64) :
    shapeCast S64x2048x64 x shapeCasts_S4x16x2048x64_S64x2048x64 (ix3 p r d)
      = x (ix4 (⟨p.val / 16, by have := p.isLt; omega⟩ : Fin 4) (⟨p.val % 16, Nat.mod_lt _ (by norm_num)⟩ : Fin 16) r d) :=
  shapeCast_apply x _ _ _ (by
    rw [Shape.rowMajor_val_three, Shape.rowMajor_val_four]
    show (((p.val / 16) * 16 + p.val % 16) * 2048 + r.val) * 64 + d.val = (p.val * 2048 + r.val) * 64 + d.val
    have := Nat.div_add_mod p.val 16
    have e : p.val / 16 * 16 + p.val % 16 = p.val := by omega
    rw [e])

/-- The three arrays the region finds are the arguments with batch and head merged. -/
theorem V_v0 (c : Dev nD) : (V m c main_v0 : S64x2048x64.Idx → Elt F .f32)
    = shapeCast S64x2048x64 (m ((c : Thread nD τ).loc main_arg0)) shapeCasts_S4x16x2048x64_S64x2048x64 := by
  show StableHlo.after hostOps0 (fun b => m (c, b)) (Proc.devRef .tc main_v0) = _
  after_results; rfl
theorem V_v1 (c : Dev nD) : (V m c main_v1 : S64x2048x64.Idx → Elt F .f32)
    = shapeCast S64x2048x64 (m ((c : Thread nD τ).loc main_arg1)) shapeCasts_S4x16x2048x64_S64x2048x64 := by
  show StableHlo.after hostOps0 (fun b => m (c, b)) (Proc.devRef .tc main_v1) = _
  after_results; rfl
theorem V_v2 (c : Dev nD) : (V m c main_v2 : S64x2048x64.Idx → Elt F .f32)
    = shapeCast S64x2048x64 (m ((c : Thread nD τ).loc main_arg2)) shapeCasts_S4x16x2048x64_S64x2048x64 := by
  show StableHlo.after hostOps0 (fun b => m (c, b)) (Proc.devRef .tc main_v2) = _
  after_results; rfl

/-- The query block at point `t`, entry (r, d): the first argument at (batch, head, r, d). -/
theorem blkQ (c : Dev nD) (t : Fin cfg0.N) (r : Fin 2048) (d : Fin 64) :
    (iblk m c 0 t : Vec F S1x2048x64 .f32) (ix3 (0 : Fin 1) r d)
      = m ((c : Thread nD τ).loc main_arg0) (ix4 (bOf t.val) (hOf t.val) r d) := by
  have hN : t.val < 256 := lt_of_lt_of_eq t.isLt (show cfg0.N = 256 from N_0)
  obtain ⟨e0, e1, e2, -⟩ := idx_facts t
  unfold iblk
  rw [View.read_apply]
  show V m c main_v0 _ = _
  rw [V_v0]
  refine (congrArg _ (?_ : _ = ix3 (⟨t.val / 4, by omega⟩ : Fin 64) r d)).trans ((merge_apply _ _ r d).trans (congrArg _ ?_))
  · funext a; apply Fin.ext
    match a with
    | ⟨0, _⟩ => show win0_0.index t (0 : Fin 3) * 1 + 1 * 0 = t.val / 4; omega
    | ⟨1, _⟩ => show win0_0.index t (1 : Fin 3) * 2048 + 1 * r.val = r.val; omega
    | ⟨2, _⟩ => show win0_0.index t (2 : Fin 3) * 64 + 1 * d.val = d.val; omega
  · funext a; apply Fin.ext
    match a with
    | ⟨0, _⟩ => show t.val / 4 / 16 = t.val / 64 % 4; omega
    | ⟨1, _⟩ => rfl
    | ⟨2, _⟩ => rfl
    | ⟨3, _⟩ => rfl

/-- The key tile at point `t`, entry (k, d): the second argument at (batch, head, 512 (t % 4) + k, d). -/
theorem blkK (c : Dev nD) (t : Fin cfg0.N) (k : Fin 512) (d : Fin 64) :
    (iblk m c 1 t : Vec F S1x512x64 .f32) (ix3 (0 : Fin 1) k d)
      = m ((c : Thread nD τ).loc main_arg1) (ix4 (bOf t.val) (hOf t.val) (Attn.tileIx (t.val % 4) k) d) := by
  have hN : t.val < 256 := lt_of_lt_of_eq t.isLt (show cfg0.N = 256 from N_0)
  obtain ⟨-, -, -, e0, e1, e2, -⟩ := idx_facts t
  unfold iblk
  rw [View.read_apply]
  show V m c main_v1 _ = _
  rw [V_v1]
  refine (congrArg _ (?_ : _ = ix3 (⟨t.val / 4, by omega⟩ : Fin 64) (Attn.tileIx (t.val % 4) k) d)).trans ((merge_apply _ _ _ d).trans (congrArg _ ?_))
  · funext a; apply Fin.ext
    have hk := k.isLt
    match a with
    | ⟨0, _⟩ => show win0_1.index t (0 : Fin 3) * 1 + 1 * 0 = t.val / 4; omega
    | ⟨1, _⟩ => show win0_1.index t (1 : Fin 3) * 512 + 1 * k.val = (512 * (t.val % 4) + k.val) % 2048; omega
    | ⟨2, _⟩ => show win0_1.index t (2 : Fin 3) * 64 + 1 * d.val = d.val; omega
  · funext a; apply Fin.ext
    match a with
    | ⟨0, _⟩ => show t.val / 4 / 16 = t.val / 64 % 4; omega
    | ⟨1, _⟩ => rfl
    | ⟨2, _⟩ => rfl
    | ⟨3, _⟩ => rfl

/-- The value tile at point `t`, entry (k, d): the third argument at (batch, head, 512 (t % 4) + k, d). -/
theorem blkV (c : Dev nD) (t : Fin cfg0.N) (k : Fin 512) (d : Fin 64) :
    (iblk m c 2 t : Vec F S1x512x64 .f32) (ix3 (0 : Fin 1) k d)
      = m ((c : Thread nD τ).loc main_arg2) (ix4 (bOf t.val) (hOf t.val) (Attn.tileIx (t.val % 4) k) d) := by
  have hN : t.val < 256 := lt_of_lt_of_eq t.isLt (show cfg0.N = 256 from N_0)
  obtain ⟨-, -, -, -, -, -, e0, e1, e2, -⟩ := idx_facts t
  unfold iblk
  rw [View.read_apply]
  show V m c main_v2 _ = _
  rw [V_v2]
  refine (congrArg _ (?_ : _ = ix3 (⟨t.val / 4, by omega⟩ : Fin 64) (Attn.tileIx (t.val % 4) k) d)).trans ((merge_apply _ _ _ d).trans (congrArg _ ?_))
  · funext a; apply Fin.ext
    have hk := k.isLt
    match a with
    | ⟨0, _⟩ => show win0_2.index t (0 : Fin 3) * 1 + 1 * 0 = t.val / 4; omega
    | ⟨1, _⟩ => show win0_2.index t (1 : Fin 3) * 512 + 1 * k.val = (512 * (t.val % 4) + k.val) % 2048; omega
    | ⟨2, _⟩ => show win0_2.index t (2 : Fin 3) * 64 + 1 * d.val = d.val; omega
  · funext a; apply Fin.ext
    match a with
    | ⟨0, _⟩ => show t.val / 4 / 16 = t.val / 64 % 4; omega
    | ⟨1, _⟩ => rfl
    | ⟨2, _⟩ => rfl
    | ⟨3, _⟩ => rfl

end Cert.KernelIdeal.KBlocks

end
-- ==== Proof.Pieces.lean ====
/-
  What each case of the body leaves in the three carried buffers and in the output block, as the body's
  arithmetic applied to what it loaded.  At the first tile of a row block (case A) the running maximum,
  normaliser and accumulator are first reset to `-∞`, `0`, `0` and read back; at the later tiles
  (cases B and C) they are what the tile before left; at the last tile (case C) the output block is the
  quotient of the new accumulator by the new normaliser.  All statements hold at every float instance.
-/
import proofs.«132326_j64252710748215_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sA0 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : cond0_0 i) (hc1 : ¬cond0_1 i) (x0 : Vec F S1x2048x64 .f32) (x1 : Vec F S1x512x64 .f32) (x2 : Vec F S1x512x64 .f32) :
    sout0_A_0 c i a2 h2 a3 h3 a4 h4 a5 h5 a6 h6 a7 h7 a8 h8 hc0 hc1 x0 x1 x2 = k0_pay2 (k0_pay9 x0 x1 k0_pay4) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S2048x1) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sA1 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : cond0_0 i) (hc1 : ¬cond0_1 i) (x0 : Vec F S1x2048x64 .f32) (x1 : Vec F S1x512x64 .f32) (x2 : Vec F S1x512x64 .f32) :
    sout0_A_1 c i a2 h2 a3 h3 a4 h4 a5 h5 a6 h6 a7 h7 a8 h8 hc0 hc1 x0 x1 x2 = k0_pay12 x0 x1 k0_pay4 k0_pay5 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S2048x1) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sA2 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : cond0_0 i) (hc1 : ¬cond0_1 i) (x0 : Vec F S1x2048x64 .f32) (x1 : Vec F S1x512x64 .f32) (x2 : Vec F S1x512x64 .f32) :
    sout0_A_2 c i a2 h2 a3 h3 a4 h4 a5 h5 a6 h6 a7 h7 a8 h8 hc0 hc1 x0 x1 x2 = k0_pay1 (k0_pay7 x2) (k0_pay11 x0 x1 k0_pay4) (k0_pay13 x0 x1 k0_pay4 k0_pay6) := by
  unfold sout0_A_2
  rw [View.read_writes_eq_canon _ _ _ (scover0_A_2 c i a2 h2 a3 h3 a4 h4 a5 h5 a6 h6 a7 h7 a8 h8 hc0 hc1 x0 x1 x2)]
  unfold kernelRun0_A
  dsimp only
  sl_unfold_words
  rw [View.canon_cons_unit_zero (S := S2048x64) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sB0 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : ¬cond0_0 i) (hc1 : ¬cond0_1 i) (x0 : Vec F S1x2048x64 .f32) (x1 : Vec F S1x512x64 .f32) (x2 : Vec F S1x512x64 .f32) (xs0 : Vec F S2048x1 .f32) (xs1 : Vec F S2048x1 .f32) (xs2 : Vec F S2048x64 .f32) :
    sout0_B_0 c i a2 h2 a3 h3 a4 h4 a5 h5 a6 h6 a7 h7 a8 h8 hc0 hc1 x0 x1 x2 xs0 xs1 xs2 = k0_pay2 (k0_pay9 x0 x1 xs0) := by
  unfold sout0_B_0
  rw [View.read_writes_eq_canon _ _ _ (scover0_B_0 c i a2 h2 a3 h3 a4 h4 a5 h5 a6 h6 a7 h7 a8 h8 hc0 hc1 x0 x1 x2 xs0 xs1 xs2)]
  unfold kernelRun0_B
  dsimp only
  sl_unfold_words
  rw [View.canon_unit_zero (S := S2048x1) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sB1 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : ¬cond0_0 i) (hc1 : ¬cond0_1 i) (x0 : Vec F S1x2048x64 .f32) (x1 : Vec F S1x512x64 .f32) (x2 : Vec F S1x512x64 .f32) (xs0 : Vec F S2048x1 .f32) (xs1 : Vec F S2048x1 .f32) (xs2 : Vec F S2048x64 .f32) :
    sout0_B_1 c i a2 h2 a3 h3 a4 h4 a5 h5 a6 h6 a7 h7 a8 h8 hc0 hc1 x0 x1 x2 xs0 xs1 xs2 = k0_pay12 x0 x1 xs0 xs1 := by
  unfold sout0_B_1
  rw [View.read_writes_eq_canon _ _ _ (scover0_B_1 c i a2 h2 a3 h3 a4 h4 a5 h5 a6 h6 a7 h7 a8 h8 hc0 hc1 x0 x1 x2 xs0 xs1 xs2)]
  unfold kernelRun0_B
  dsimp only
  sl_unfold_words
  rw [View.canon_unit_zero (S := S2048x1) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sB2 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : ¬cond0_0 i) (hc1 : ¬cond0_1 i) (x0 : Vec F S1x2048x64 .f32) (x1 : Vec F S1x512x64 .f32) (x2 : Vec F S1x512x64 .f32) (xs0 : Vec F S2048x1 .f32) (xs1 : Vec F S2048x1 .f32) (xs2 : Vec F S2048x64 .f32) :
    sout0_B_2 c i a2 h2 a3 h3 a4 h4 a5 h5 a6 h6 a7 h7 a8 h8 hc0 hc1 x0 x1 x2 xs0 xs1 xs2 = k0_pay1 (k0_pay7 x2) (k0_pay11 x0 x1 xs0) (k0_pay13 x0 x1 xs0 xs2) := by
  unfold sout0_B_2
  rw [View.read_writes_eq_canon _ _ _ (scover0_B_2 c i a2 h2 a3 h3 a4 h4 a5 h5 a6 h6 a7 h7 a8 h8 hc0 hc1 x0 x1 x2 xs0 xs1 xs2)]
  unfold kernelRun0_B
  dsimp only
  sl_unfold_words
  rw [View.canon_unit_zero (S := S2048x64) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sC0 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : ¬cond0_0 i) (hc1 : cond0_1 i) (x0 : Vec F S1x2048x64 .f32) (x1 : Vec F S1x512x64 .f32) (x2 : Vec F S1x512x64 .f32) (xs0 : Vec F S2048x1 .f32) (xs1 : Vec F S2048x1 .f32) (xs2 : Vec F S2048x64 .f32) :
    sout0_C_0 c i a2 h2 a3 h3 a4 h4 a5 h5 a6 h6 a7 h7 a8 h8 hc0 hc1 x0 x1 x2 xs0 xs1 xs2 = k0_pay2 (k0_pay9 x0 x1 xs0) := by
  unfold sout0_C_0
  rw [View.read_writes_eq_canon _ _ _ (scover0_C_0 c i a2 h2 a3 h3 a4 h4 a5 h5 a6 h6 a7 h7 a8 h8 hc0 hc1 x0 x1 x2 xs0 xs1 xs2)]
  unfold kernelRun0_C
  dsimp only
  sl_unfold_words
  rw [View.canon_unit_zero (S := S2048x1) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sC1 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : ¬cond0_0 i) (hc1 : cond0_1 i) (x0 : Vec F S1x2048x64 .f32) (x1 : Vec F S1x512x64 .f32) (x2 : Vec F S1x512x64 .f32) (xs0 : Vec F S2048x1 .f32) (xs1 : Vec F S2048x1 .f32) (xs2 : Vec F S2048x64 .f32) :
    sout0_C_1 c i a2 h2 a3 h3 a4 h4 a5 h5 a6 h6 a7 h7 a8 h8 hc0 hc1 x0 x1 x2 xs0 xs1 xs2 = k0_pay12 x0 x1 xs0 xs1 := by
  unfold sout0_C_1
  rw [View.read_writes_eq_canon _ _ _ (scover0_C_1 c i a2 h2 a3 h3 a4 h4 a5 h5 a6 h6 a7 h7 a8 h8 hc0 hc1 x0 x1 x2 xs0 xs1 xs2)]
  unfold kernelRun0_C
  dsimp only
  sl_unfold_words
  rw [View.canon_unit_zero (S := S2048x1) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem sC2 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : ¬cond0_0 i) (hc1 : cond0_1 i) (x0 : Vec F S1x2048x64 .f32) (x1 : Vec F S1x512x64 .f32) (x2 : Vec F S1x512x64 .f32) (xs0 : Vec F S2048x1 .f32) (xs1 : Vec F S2048x1 .f32) (xs2 : Vec F S2048x64 .f32) :
    sout0_C_2 c i a2 h2 a3 h3 a4 h4 a5 h5 a6 h6 a7 h7 a8 h8 hc0 hc1 x0 x1 x2 xs0 xs1 xs2 = k0_pay1 (k0_pay7 x2) (k0_pay11 x0 x1 xs0) (k0_pay13 x0 x1 xs0 xs2) := by
  unfold sout0_C_2
  rw [View.read_writes_eq_canon _ _ _ (scover0_C_2 c i a2 h2 a3 h3 a4 h4 a5 h5 a6 h6 a7 h7 a8 h8 hc0 hc1 x0 x1 x2 xs0 xs1 xs2)]
  unfold kernelRun0_C
  dsimp only
  sl_unfold_words
  rw [View.canon_unit_zero (S := S2048x64) hz2]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

theorem oC3 (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole) (hc0 : ¬cond0_0 i) (hc1 : cond0_1 i) (x0 : Vec F S1x2048x64 .f32) (x1 : Vec F S1x512x64 .f32) (x2 : Vec F S1x512x64 .f32) (xs0 : Vec F S2048x1 .f32) (xs1 : Vec F S2048x1 .f32) (xs2 : Vec F S2048x64 .f32) :
    out0_C_3 c i a2 h2 a3 h3 a4 h4 a5 h5 a6 h6 a7 h7 a8 h8 hc0 hc1 x0 x1 x2 xs0 xs1 xs2 = k0_pay3 (k0_pay1 (k0_pay7 x2) (k0_pay11 x0 x1 xs0) (k0_pay13 x0 x1 xs0 xs2)) (k0_pay12 x0 x1 xs0 xs1) := by
  unfold out0_C_3
  rw [View.read_writes_eq_canon _ _ _ (cover0_C_3 c i a2 h2 a3 h3 a4 h4 a5 h5 a6 h6 a7 h7 a8 h8 hc0 hc1 x0 x1 x2 xs0 xs1 xs2)]
  unfold kernelRun0_C
  dsimp only
  sl_unfold_words
  rw [View.canon_unit_zero (S := S1x2048x64) hz3]
  simp only [View.readCov_unit_zero (S := S2048x1) _ hz2, View.readCov_unit_zero (S := S2048x64) _ hz2, View.readAt_eq_ld, h2.read_unread, h3.read_unread, h4.read_unread, h6.read_unread, h7.read_unread, h8.read_unread,
    View.ld_unit_zero (S := S1x2048x64) hz3, View.ld_unit_zero (S := S1x512x64) hz3, View.ld_unit_zero (S := S2048x1) hz2, View.ld_unit_zero (S := S2048x64) hz2]

end Cert.KernelIdeal.Pieces

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.KValue.lean ====
/-
  The body's arithmetic read at one entry, over the extended reals.

  One grid step sees the whole query block `x0` ([1, 2048, 64]), one tile of 512 keys `x1` and of 512
  values `x2` ([1, 512, 64]), and the running maximum `m`, normaliser `l` ([2048, 1]) and accumulator
  `acc` ([2048, 64]).  Row `r` of the step's score tile is `sc x0 x1 r k = (∑ d, x0[r, d] * x1[k, d]) * 4096`;
  each stored value, read at row `r` (and column `d`), is the corresponding tile update of Spec.lean.
-/
import proofs.«132326_j64252710748215_2_alg».proof.Proof.Gen.KernelIdeal.Skeleton
import proofs.«132326_j64252710748215_2_alg».proof.Proof.Spec
import proofs.«132326_j64252710748215_2_alg».proof.Proof.LibIndex
import Idealize.ShloMosaic.Lib.ValueIdx
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.ValueIdx Cert.LayoutLib

/-- The pattern of `-∞` denotes the bottom of the extended reals. -/
theorem ofBits_neg_inf : Ideal.ofBits .f32 0xFF800000#32 = (⊥ : EReal) := by
  simp [Ideal.ofBits, Ideal.ieee]

/-- Row `r` of the score tile: query row `r` against each of the tile's 512 keys, scaled. -/
def sc (x0 : Vec Ideal S1x2048x64 .f32) (x1 : Vec Ideal S1x512x64 .f32) (r : Fin 2048) : Fin 512 → EReal :=
  fun k => (∑ d : Fin 64, x0 (ix3 (0 : Fin 1) r d) * x1 (ix3 (0 : Fin 1) k d)) * Ideal.ofBits .f32 0x45800000#32

/-- Column `d` of the value tile. -/
def vc (x2 : Vec Ideal S1x512x64 .f32) (d : Fin 64) : Fin 512 → EReal := fun k => x2 (ix3 (0 : Fin 1) k d)

/-- Dropping the leading unit axis of a [1, n, 64] block keeps the entry at (row, column). -/
theorem dropQ_apply (x : Vec Ideal S1x2048x64 .f32) (r : Fin 2048) (d : Fin 64) :
    shapeCast S2048x64 x shapeCasts_S1x2048x64_S2048x64 (ix2 r d) = x (ix3 (0 : Fin 1) r d) :=
  shapeCast_apply x _ _ _ (by
    rw [Shape.rowMajor_val_two, Shape.rowMajor_val_three]
    show ((0 : ℕ) * 2048 + r.val) * 64 + d.val = r.val * 64 + d.val
    omega)

theorem dropK_apply (x : Vec Ideal S1x512x64 .f32) (k : Fin 512) (d : Fin 64) :
    shapeCast S512x64 x shapeCasts_S1x512x64_S512x64 (ix2 k d) = x (ix3 (0 : Fin 1) k d) :=
  shapeCast_apply x _ _ _ (by
    rw [Shape.rowMajor_val_two, Shape.rowMajor_val_three]
    show ((0 : ℕ) * 512 + k.val) * 64 + d.val = k.val * 64 + d.val
    omega)

/-- The scaled score tile at (r, k): the product contracts the feature axis of both operands. -/
theorem pay8_apply (x0 : Vec Ideal S1x2048x64 .f32) (x1 : Vec Ideal S1x512x64 .f32) (r : Fin 2048) (k : Fin 512) :
    k0_pay8 (F := Ideal) x0 x1 (ix2 r k) = sc x0 x1 r k := by
  unfold k0_pay8 sc
  show FloatOps.matmul dot_S2048x64_S512x64_S2048x512_1_1_0_0_n_n (some .fp32) _ _ (constant S2048x512 .f32 0x00000000#32) (ix2 r k) * _ = _
  rw [Ideal.matmul_constant_zero_apply,
    ← Equiv.sum_comp (contrEquiv1 dot_S2048x64_S512x64_S2048x512_1_1_0_0_n_n 64 rfl rfl).symm]
  refine congrArg (· * _) (Finset.sum_congr rfl fun d _ => ?_)
  have hk := contrEquiv1_symm_val dot_S2048x64_S512x64_S2048x512_1_1_0_0_n_n 64 rfl rfl d
  have el : dot_S2048x64_S512x64_S2048x512_1_1_0_0_n_n.lhsIdx (ix2 r k)
      ((contrEquiv1 dot_S2048x64_S512x64_S2048x512_1_1_0_0_n_n 64 rfl rfl).symm d) = ix2 r d :=
    funext fun a => Fin.ext (by
      match a with
      | ⟨0, _⟩ => rfl
      | ⟨1, _⟩ => exact (dot_S2048x64_S512x64_S2048x512_1_1_0_0_n_n.lhsIdx_val_of_single (cl := (1 : Fin 2)) rfl _ _).trans hk)
  have er : dot_S2048x64_S512x64_S2048x512_1_1_0_0_n_n.rhsIdx (ix2 r k)
      ((contrEquiv1 dot_S2048x64_S512x64_S2048x512_1_1_0_0_n_n 64 rfl rfl).symm d) = ix2 k d :=
    funext fun a => Fin.ext (by
      match a with
      | ⟨0, _⟩ => rfl
      | ⟨1, _⟩ => exact (dot_S2048x64_S512x64_S2048x512_1_1_0_0_n_n.rhsIdx_val_of_single (cr := (1 : Fin 2)) rfl _ _).trans hk)
  rw [el, er, dropQ_apply, dropK_apply]

/-- The row maximum of a [2048, 512] tile, kept as a column, at row `r`. -/
theorem rowMax_apply (y : FVec Ideal S2048x512 .f32) (r : Fin 2048) (hφ : FKind.Formats .f32)
    (hacc : (0xFF800000#32 : BitVec 32) = FKind.maximumf.neutral .f32 hφ) :
    shapeCast S2048x1 (multiReduction .maximumf [1] S2048 y 0xFF800000#32 reduces_S2048x512_S2048 hφ hacc)
      shapeCasts_S2048_S2048x1 (ix2 r (0 : Fin 1)) = Attn.rowMax fun k : Fin 512 => y (ix2 r k) := by
  refine (shapeCast_col_apply _ _ r 0).trans ?_
  refine (Ideal.multiReduction_maximumf_single y 0xFF800000#32 reduces_S2048x512_S2048 hφ hacc (ix1 r)).trans ?_
  show (Finset.univ : Finset (Fin 512)).fold max (Ideal.ofBits .f32 0xFF800000#32) _ = _
  rw [ofBits_neg_inf]
  unfold Attn.rowMax
  exact congrArg (fun f : Fin 512 → EReal => (Finset.univ : Finset (Fin 512)).fold max ⊥ f)
    (funext fun k => congrArg y (lift_row reduces_S2048x512_S2048 r k))

/-- The row sum of a [2048, 512] tile, kept as a column, at row `r`. -/
theorem rowSum_apply (y : FVec Ideal S2048x512 .f32) (r : Fin 2048) (hφ : FKind.Formats .f32)
    (hacc : (0x00000000#32 : BitVec 32) = FKind.add.neutral .f32 hφ) :
    shapeCast S2048x1 (multiReduction .add [1] S2048 y 0x00000000#32 reduces_S2048x512_S2048 hφ hacc)
      shapeCasts_S2048_S2048x1 (ix2 r (0 : Fin 1)) = ∑ k : Fin 512, y (ix2 r k) := by
  refine (shapeCast_col_apply _ _ r 0).trans ?_
  refine (Ideal.multiReduction_add_single y 0x00000000#32 reduces_S2048x512_S2048 hφ hacc (ix1 r)).trans ?_
  exact Finset.sum_congr rfl fun k _ => congrArg y (lift_row reduces_S2048x512_S2048 r k)

/-- The new running maximum at row `r`. -/
theorem pay9_apply (x0 : Vec Ideal S1x2048x64 .f32) (x1 : Vec Ideal S1x512x64 .f32) (m : Vec Ideal S2048x1 .f32) (r : Fin 2048) :
    k0_pay9 (F := Ideal) x0 x1 m (ix2 r (0 : Fin 1)) = Attn.stepM (m (ix2 r (0 : Fin 1))) (sc x0 x1 r) := by
  unfold k0_pay9 Attn.stepM
  refine congrArg (max (m (ix2 r (0 : Fin 1)))) ((rowMax_apply (k0_pay8 (F := Ideal) x0 x1) r _ _).trans ?_)
  exact congrArg _ (funext fun k => pay8_apply x0 x1 r k)

/-- The rescaling factor `exp (m - m')` at row `r`. -/
theorem pay10_apply (x0 : Vec Ideal S1x2048x64 .f32) (x1 : Vec Ideal S1x512x64 .f32) (m : Vec Ideal S2048x1 .f32) (r : Fin 2048) :
    k0_pay10 (F := Ideal) x0 x1 m (ix2 r (0 : Fin 1))
      = Ideal.exp (m (ix2 r (0 : Fin 1)) - Attn.stepM (m (ix2 r (0 : Fin 1))) (sc x0 x1 r)) := by
  unfold k0_pay10
  show Ideal.exp (m (ix2 r (0 : Fin 1)) - k0_pay9 (F := Ideal) x0 x1 m (ix2 r (0 : Fin 1))) = _
  rw [pay9_apply]

/-- The tile's weights `exp (s - m')` at (r, k). -/
theorem pay11_apply (x0 : Vec Ideal S1x2048x64 .f32) (x1 : Vec Ideal S1x512x64 .f32) (m : Vec Ideal S2048x1 .f32) (r : Fin 2048) (k : Fin 512) :
    k0_pay11 (F := Ideal) x0 x1 m (ix2 r k)
      = Ideal.exp (sc x0 x1 r k - Attn.stepM (m (ix2 r (0 : Fin 1))) (sc x0 x1 r)) := by
  unfold k0_pay11
  show Ideal.exp (k0_pay8 (F := Ideal) x0 x1 (ix2 r k) - broadcastTo S2048x512 (k0_pay9 (F := Ideal) x0 x1 m) broadcasts_S2048x1_S2048x512 (ix2 r k)) = _
  rw [broadcastTo_col_apply, pay8_apply, pay9_apply]

/-- The new running normaliser at row `r`. -/
theorem pay12_apply (x0 : Vec Ideal S1x2048x64 .f32) (x1 : Vec Ideal S1x512x64 .f32) (m l : Vec Ideal S2048x1 .f32) (r : Fin 2048) :
    k0_pay12 (F := Ideal) x0 x1 m l (ix2 r (0 : Fin 1))
      = Attn.stepL (m (ix2 r (0 : Fin 1))) (l (ix2 r (0 : Fin 1))) (sc x0 x1 r) := by
  unfold k0_pay12 Attn.stepL
  rw [shapeCast_self]
  refine congrArg₂ (· + ·) ?_ ((rowSum_apply (k0_pay11 (F := Ideal) x0 x1 m) r _ _).trans ?_)
  · show k0_pay10 (F := Ideal) x0 x1 m (ix2 r (0 : Fin 1)) * l (ix2 r (0 : Fin 1)) = _
    rw [pay10_apply]
  · exact Finset.sum_congr rfl fun k _ => pay11_apply x0 x1 m r k

/-- The new running accumulator at (r, d): the old one rescaled plus the tile's weighted values. -/
theorem acc_apply (x0 : Vec Ideal S1x2048x64 .f32) (x1 x2 : Vec Ideal S1x512x64 .f32) (m : Vec Ideal S2048x1 .f32)
    (acc : Vec Ideal S2048x64 .f32) (r : Fin 2048) (d : Fin 64) :
    k0_pay1 (F := Ideal) (k0_pay7 x2) (k0_pay11 x0 x1 m) (k0_pay13 x0 x1 m acc) (ix2 r d)
      = Attn.stepA (m (ix2 r (0 : Fin 1))) (acc (ix2 r d)) (sc x0 x1 r) (vc x2 d) := by
  unfold k0_pay1 Attn.stepA
  rw [shapeCast_self]
  show k0_pay13 (F := Ideal) x0 x1 m acc (ix2 r d)
      + FloatOps.matmul dot_S2048x512_S512x64_S2048x64_1_0_0_1_n_n none _ _ (constant S2048x64 .f32 0x00000000#32) (ix2 r d) = _
  rw [Ideal.matmul_constant_zero_apply,
    dot_plain_sum dot_S2048x512_S512x64_S2048x64_1_0_0_1_n_n rfl]
  refine congrArg₂ (· + ·) ?_ (Finset.sum_congr rfl fun k _ => ?_)
  · unfold k0_pay13
    show broadcastTo S2048x64 (k0_pay10 (F := Ideal) x0 x1 m) broadcasts_S2048x1_S2048x64 (ix2 r d) * acc (ix2 r d) = _
    rw [broadcastTo_col_apply, pay10_apply]
  · show k0_pay11 (F := Ideal) x0 x1 m (ix2 r k) * k0_pay7 (F := Ideal) x2 (ix2 k d) = _
    rw [pay11_apply]
    unfold k0_pay7 vc
    show _ * shapeCast S512x64 x2 shapeCasts_S1x512x64_S512x64 (ix2 k d) = _
    rw [dropK_apply]

/-- The result block at (0, r, d): accumulator over normaliser. -/
theorem pay3_apply (acc : Vec Ideal S2048x64 .f32) (l : Vec Ideal S2048x1 .f32) (r : Fin 2048) (d : Fin 64) :
    k0_pay3 (F := Ideal) acc l (ix3 (0 : Fin 1) r d) = Ideal.div (acc (ix2 r d)) (l (ix2 r (0 : Fin 1))) := by
  unfold k0_pay3
  rw [shapeCast_apply _ shapeCasts_S2048x64_S1x2048x64 (ix3 (0 : Fin 1) r d) (ix2 r d) (by
    rw [Shape.rowMajor_val_two, Shape.rowMajor_val_three]
    show r.val * 64 + d.val = ((0 : ℕ) * 2048 + r.val) * 64 + d.val
    omega)]
  show Ideal.div (acc (ix2 r d)) (broadcastTo S2048x64 l broadcasts_S2048x1_S2048x64 (ix2 r d)) = _
  rw [broadcastTo_col_apply]

/-- The three initial stores: `-∞`, `0`, `0`. -/
theorem pay4_apply (j : S2048x1.Idx) : k0_pay4 (F := Ideal) j = (⊥ : EReal) := by
  unfold k0_pay4; rw [shapeCast_self]; exact ofBits_neg_inf
theorem pay5_apply (j : S2048x1.Idx) : k0_pay5 (F := Ideal) j = (0 : EReal) := by
  unfold k0_pay5; rw [shapeCast_self]; exact Ideal.ofBits_zero_f32
theorem pay6_apply (j : S2048x64.Idx) : k0_pay6 (F := Ideal) j = (0 : EReal) := by
  unfold k0_pay6; rw [shapeCast_self]; exact Ideal.ofBits_zero_f32

/-- The stored running maximum is the new maximum (a cast to the same shape). -/
theorem pay2_eq (y : FVec Ideal S2048x1 .f32) : k0_pay2 (F := Ideal) y = y := by
  unfold k0_pay2; exact shapeCast_self _ _

end Cert.KernelIdeal.KValue

end
-- ==== Proof.KStep.lean ====
/-
  One grid step on the carried buffers.  If the buffers' rows hold the online recursion after tiles
  `0 … j` of the row's scores (for one batch and head), and the step's key and value tiles are tile
  `j + 1`, the buffers afterwards hold the recursion after tiles `0 … j + 1`; the first tile of a
  batch·head starts from the reset values `-∞`, `0`, `0`; and at the last tile the output block is the
  new accumulator over the new normaliser.
-/
import proofs.«132326_j64252710748215_2_alg».proof.Proof.Gen.KernelIdeal.Frame
import proofs.«132326_j64252710748215_2_alg».proof.Proof.Spec
import proofs.«132326_j64252710748215_2_alg».proof.Proof.Pieces
import proofs.«132326_j64252710748215_2_alg».proof.Proof.KValue
import proofs.«132326_j64252710748215_2_alg».proof.Proof.KBlocks

set_option maxRecDepth 16384

noncomputable section

namespace Cert.KernelIdeal.KInv

open Cert.KernelIdeal Cert.KernelIdeal.Gen Idealize.ShloMosaic Idealize.ShloMosaic.TcCoe Idealize.SL.Sem
open Idealize.ShloMosaic.ValueIdx Cert.KernelIdeal.KValue Cert.KernelIdeal.KBlocks

/-- The kernel's scale literal (4096). -/
abbrev cs : EReal := Ideal.ofBits .f32 0x45800000#32

section Step

variable (Q K W : Attn.SQ.Idx → EReal) (b : Fin 4) (h : Fin 16) (j : ℕ)
variable (x0 : Vec Ideal S1x2048x64 .f32) (x1 x2 : Vec Ideal S1x512x64 .f32)

/-- When the query block is the (b, h) slab and the key tile is tile `j` of it, a row of the step's
    score tile is tile `j` of that row's scores. -/
theorem sc_eq_tile (hx0 : ∀ r d, x0 (ix3 (0 : Fin 1) r d) = Q (ix4 b h r d))
    (hx1 : ∀ k d, x1 (ix3 (0 : Fin 1) k d) = K (ix4 b h (Attn.tileIx j k) d)) (r : Fin 2048) :
    sc x0 x1 r = Attn.tile (Attn.score cs Q K b h r) j := by
  funext k
  unfold sc Attn.tile Attn.score
  exact congrArg (· * _) (Finset.sum_congr rfl fun d _ => by rw [hx0, hx1])

/-- Likewise a column of the value tile is tile `j` of that column of the values. -/
theorem vc_eq_tile (hx2 : ∀ k d, x2 (ix3 (0 : Fin 1) k d) = W (ix4 b h (Attn.tileIx j k) d)) (d : Fin 64) :
    vc x2 d = Attn.tile (Attn.vcol W b h d) j := by
  funext k
  unfold vc Attn.tile Attn.vcol
  exact hx2 k d

/-- One grid step on carried buffers whose rows hold `M`, `L`, `A`: the three stored values are the
    tile updates of those, with tile `j` of the row's scores and of the column's values. -/
theorem step_values (hx0 : ∀ r d, x0 (ix3 (0 : Fin 1) r d) = Q (ix4 b h r d))
    (hx1 : ∀ k d, x1 (ix3 (0 : Fin 1) k d) = K (ix4 b h (Attn.tileIx j k) d))
    (hx2 : ∀ k d, x2 (ix3 (0 : Fin 1) k d) = W (ix4 b h (Attn.tileIx j k) d))
    (xm xl : Vec Ideal S2048x1 .f32) (xa : Vec Ideal S2048x64 .f32)
    (M L : Fin 2048 → EReal) (A : Fin 2048 → Fin 64 → EReal)
    (hm : ∀ r, xm (ix2 r (0 : Fin 1)) = M r) (hl : ∀ r, xl (ix2 r (0 : Fin 1)) = L r) (ha : ∀ r d, xa (ix2 r d) = A r d) :
    (∀ r, k0_pay2 (F := Ideal) (k0_pay9 x0 x1 xm) (ix2 r (0 : Fin 1))
        = Attn.stepM (M r) (Attn.tile (Attn.score cs Q K b h r) j))
    ∧ (∀ r, k0_pay12 (F := Ideal) x0 x1 xm xl (ix2 r (0 : Fin 1))
        = Attn.stepL (M r) (L r) (Attn.tile (Attn.score cs Q K b h r) j))
    ∧ (∀ r d, k0_pay1 (F := Ideal) (k0_pay7 x2) (k0_pay11 x0 x1 xm) (k0_pay13 x0 x1 xm xa) (ix2 r d)
        = Attn.stepA (M r) (A r d) (Attn.tile (Attn.score cs Q K b h r) j) (Attn.tile (Attn.vcol W b h d) j)) := by
  refine ⟨fun r => ?_, fun r => ?_, fun r d => ?_⟩
  · rw [pay2_eq, pay9_apply, hm, sc_eq_tile Q K b h j x0 x1 hx0 hx1]
  · rw [pay12_apply, hm, hl, sc_eq_tile Q K b h j x0 x1 hx0 hx1]
  · rw [acc_apply, hm, ha, sc_eq_tile Q K b h j x0 x1 hx0 hx1, vc_eq_tile W b h j x2 hx2]

end Step

/-- The carried buffers hold the online recursion after tiles `0 … j`, for batch `b`, head `h`. -/
structure Holds (Q K W : Attn.SQ.Idx → EReal) (b : Fin 4) (h : Fin 16) (j : ℕ)
    (xm xl : Vec Ideal S2048x1 .f32) (xa : Vec Ideal S2048x64 .f32) : Prop where
  hm : ∀ r, xm (ix2 r (0 : Fin 1)) = Attn.runM (Attn.score cs Q K b h r) j
  hl : ∀ r, xl (ix2 r (0 : Fin 1)) = Attn.runL (Attn.score cs Q K b h r) j
  ha : ∀ r d, xa (ix2 r d) = Attn.runA (Attn.score cs Q K b h r) (Attn.vcol W b h d) j

section Cases

variable (Q K W : Attn.SQ.Idx → EReal) (b : Fin 4) (h : Fin 16)
variable (c : Dev nD) (i : grid0.Coords) (a2 : Memref sig .tc .vmem S1x2048x64 .f32) (h2 : a2.IsWhole) (a3 : Memref sig .tc .vmem S1x512x64 .f32) (h3 : a3.IsWhole) (a4 : Memref sig .tc .vmem S1x512x64 .f32) (h4 : a4.IsWhole) (a5 : Memref sig .tc .vmem S1x2048x64 .f32) (h5 : a5.IsWhole) (a6 : Memref sig .tc .vmem S2048x1 .f32) (h6 : a6.IsWhole) (a7 : Memref sig .tc .vmem S2048x1 .f32) (h7 : a7.IsWhole) (a8 : Memref sig .tc .vmem S2048x64 .f32) (h8 : a8.IsWhole)
variable (x0 : Vec Ideal S1x2048x64 .f32) (x1 x2 : Vec Ideal S1x512x64 .f32)

/-- The first tile of a batch·head: the buffers are reset, then updated with tile 0. -/
theorem holds_A (hc0 : cond0_0 i) (hc1 : ¬cond0_1 i)
    (hx0 : ∀ r d, x0 (ix3 (0 : Fin 1) r d) = Q (ix4 b h r d))
    (hx1 : ∀ k d, x1 (ix3 (0 : Fin 1) k d) = K (ix4 b h (Attn.tileIx 0 k) d))
    (hx2 : ∀ k d, x2 (ix3 (0 : Fin 1) k d) = W (ix4 b h (Attn.tileIx 0 k) d)) :
    Holds Q K W b h 0 (sout0_A_0 (F := Ideal) c i a2 h2 a3 h3 a4 h4 a5 h5 a6 h6 a7 h7 a8 h8 hc0 hc1 x0 x1 x2) (sout0_A_1 (F := Ideal) c i a2 h2 a3 h3 a4 h4 a5 h5 a6 h6 a7 h7 a8 h8 hc0 hc1 x0 x1 x2)
      (sout0_A_2 (F := Ideal) c i a2 h2 a3 h3 a4 h4 a5 h5 a6 h6 a7 h7 a8 h8 hc0 hc1 x0 x1 x2) := by
  obtain ⟨e0, e1, e2⟩ := step_values Q K W b h 0 x0 x1 x2 hx0 hx1 hx2 (k0_pay4 (F := Ideal)) (k0_pay5 (F := Ideal)) (k0_pay6 (F := Ideal))
    (fun _ => ⊥) (fun _ => 0) (fun _ _ => 0) (fun r => pay4_apply _) (fun r => pay5_apply _) (fun r d => pay6_apply _)
  refine ⟨fun r => ?_, fun r => ?_, fun r d => ?_⟩
  · rw [Pieces.sA0 (F := Ideal) c i a2 h2 a3 h3 a4 h4 a5 h5 a6 h6 a7 h7 a8 h8 hc0 hc1 x0 x1 x2]; exact e0 r
  · rw [Pieces.sA1 (F := Ideal) c i a2 h2 a3 h3 a4 h4 a5 h5 a6 h6 a7 h7 a8 h8 hc0 hc1 x0 x1 x2]; exact e1 r
  · rw [Pieces.sA2 (F := Ideal) c i a2 h2 a3 h3 a4 h4 a5 h5 a6 h6 a7 h7 a8 h8 hc0 hc1 x0 x1 x2]; exact e2 r d

variable (xs0 xs1 : Vec Ideal S2048x1 .f32) (xs2 : Vec Ideal S2048x64 .f32) (j : ℕ)

/-- A middle tile: the buffers continue from tile `j` with tile `j + 1`. -/
theorem holds_B (hc0 : ¬cond0_0 i) (hc1 : ¬cond0_1 i) (hp : Holds Q K W b h j xs0 xs1 xs2)
    (hx0 : ∀ r d, x0 (ix3 (0 : Fin 1) r d) = Q (ix4 b h r d))
    (hx1 : ∀ k d, x1 (ix3 (0 : Fin 1) k d) = K (ix4 b h (Attn.tileIx (j + 1) k) d))
    (hx2 : ∀ k d, x2 (ix3 (0 : Fin 1) k d) = W (ix4 b h (Attn.tileIx (j + 1) k) d)) :
    Holds Q K W b h (j + 1) (sout0_B_0 (F := Ideal) c i a2 h2 a3 h3 a4 h4 a5 h5 a6 h6 a7 h7 a8 h8 hc0 hc1 x0 x1 x2 xs0 xs1 xs2)
      (sout0_B_1 (F := Ideal) c i a2 h2 a3 h3 a4 h4 a5 h5 a6 h6 a7 h7 a8 h8 hc0 hc1 x0 x1 x2 xs0 xs1 xs2) (sout0_B_2 (F := Ideal) c i a2 h2 a3 h3 a4 h4 a5 h5 a6 h6 a7 h7 a8 h8 hc0 hc1 x0 x1 x2 xs0 xs1 xs2) := by
  obtain ⟨e0, e1, e2⟩ := step_values Q K W b h (j + 1) x0 x1 x2 hx0 hx1 hx2 xs0 xs1 xs2 _ _ _ hp.hm hp.hl hp.ha
  refine ⟨fun r => ?_, fun r => ?_, fun r d => ?_⟩
  · rw [Pieces.sB0 (F := Ideal) c i a2 h2 a3 h3 a4 h4 a5 h5 a6 h6 a7 h7 a8 h8 hc0 hc1 x0 x1 x2 xs0 xs1 xs2]; exact e0 r
  · rw [Pieces.sB1 (F := Ideal) c i a2 h2 a3 h3 a4 h4 a5 h5 a6 h6 a7 h7 a8 h8 hc0 hc1 x0 x1 x2 xs0 xs1 xs2]; exact e1 r
  · rw [Pieces.sB2 (F := Ideal) c i a2 h2 a3 h3 a4 h4 a5 h5 a6 h6 a7 h7 a8 h8 hc0 hc1 x0 x1 x2 xs0 xs1 xs2]; exact e2 r d

/-- The last tile: the same continuation, -/
theorem holds_C (hc0 : ¬cond0_0 i) (hc1 : cond0_1 i) (hp : Holds Q K W b h j xs0 xs1 xs2)
    (hx0 : ∀ r d, x0 (ix3 (0 : Fin 1) r d) = Q (ix4 b h r d))
    (hx1 : ∀ k d, x1 (ix3 (0 : Fin 1) k d) = K (ix4 b h (Attn.tileIx (j + 1) k) d))
    (hx2 : ∀ k d, x2 (ix3 (0 : Fin 1) k d) = W (ix4 b h (Attn.tileIx (j + 1) k) d)) :
    Holds Q K W b h (j + 1) (sout0_C_0 (F := Ideal) c i a2 h2 a3 h3 a4 h4 a5 h5 a6 h6 a7 h7 a8 h8 hc0 hc1 x0 x1 x2 xs0 xs1 xs2)
      (sout0_C_1 (F := Ideal) c i a2 h2 a3 h3 a4 h4 a5 h5 a6 h6 a7 h7 a8 h8 hc0 hc1 x0 x1 x2 xs0 xs1 xs2) (sout0_C_2 (F := Ideal) c i a2 h2 a3 h3 a4 h4 a5 h5 a6 h6 a7 h7 a8 h8 hc0 hc1 x0 x1 x2 xs0 xs1 xs2) := by
  obtain ⟨e0, e1, e2⟩ := step_values Q K W b h (j + 1) x0 x1 x2 hx0 hx1 hx2 xs0 xs1 xs2 _ _ _ hp.hm hp.hl hp.ha
  refine ⟨fun r => ?_, fun r => ?_, fun r d => ?_⟩
  · rw [Pieces.sC0 (F := Ideal) c i a2 h2 a3 h3 a4 h4 a5 h5 a6 h6 a7 h7 a8 h8 hc0 hc1 x0 x1 x2 xs0 xs1 xs2]; exact e0 r
  · rw [Pieces.sC1 (F := Ideal) c i a2 h2 a3 h3 a4 h4 a5 h5 a6 h6 a7 h7 a8 h8 hc0 hc1 x0 x1 x2 xs0 xs1 xs2]; exact e1 r
  · rw [Pieces.sC2 (F := Ideal) c i a2 h2 a3 h3 a4 h4 a5 h5 a6 h6 a7 h7 a8 h8 hc0 hc1 x0 x1 x2 xs0 xs1 xs2]; exact e2 r d

/-- and the output block is the new accumulator over the new normaliser. -/
theorem out_C (hc0 : ¬cond0_0 i) (hc1 : cond0_1 i) (hp : Holds Q K W b h j xs0 xs1 xs2)
    (hx0 : ∀ r d, x0 (ix3 (0 : Fin 1) r d) = Q (ix4 b h r d))
    (hx1 : ∀ k d, x1 (ix3 (0 : Fin 1) k d) = K (ix4 b h (Attn.tileIx (j + 1) k) d))
    (hx2 : ∀ k d, x2 (ix3 (0 : Fin 1) k d) = W (ix4 b h (Attn.tileIx (j + 1) k) d)) (r : Fin 2048) (d : Fin 64) :
    out0_C_3 (F := Ideal) c i a2 h2 a3 h3 a4 h4 a5 h5 a6 h6 a7 h7 a8 h8 hc0 hc1 x0 x1 x2 xs0 xs1 xs2 (ix3 (0 : Fin 1) r d)
      = Ideal.div (Attn.runA (Attn.score cs Q K b h r) (Attn.vcol W b h d) (j + 1)) (Attn.runL (Attn.score cs Q K b h r) (j + 1)) := by
  obtain ⟨e0, e1, e2⟩ := step_values Q K W b h (j + 1) x0 x1 x2 hx0 hx1 hx2 xs0 xs1 xs2 _ _ _ hp.hm hp.hl hp.ha
  rw [Pieces.oC3 (F := Ideal) c i a2 h2 a3 h3 a4 h4 a5 h5 a6 h6 a7 h7 a8 h8 hc0 hc1 x0 x1 x2 xs0 xs1 xs2, pay3_apply, e2 r d, e1 r]
  rfl

end Cases

end Cert.KernelIdeal.KInv

end
-- ==== Proof.KInv.lean ====
/-
  The carried buffers after every grid point.  For batch·head `t / 4`, after the point with key tile
  `j = t % 4` the running maximum, normaliser and accumulator hold, row by row (and column by column),
  the online recursion of Spec.lean after tiles `0 … j` of that row's scores; at `j = 3` the output block
  holds accumulator over normaliser.  By induction on the point: the first tile of each batch·head
  starts afresh, every other tile continues from the point before, which has the same batch·head.
-/
import proofs.«132326_j64252710748215_2_alg».proof.Proof.KStep

set_option maxRecDepth 16384

noncomputable section

namespace Cert.KernelIdeal.KInv

open Cert.KernelIdeal Cert.KernelIdeal.Gen Idealize.ShloMosaic Idealize.ShloMosaic.TcCoe Idealize.SL.Sem
open Idealize.ShloMosaic.ValueIdx Cert.KernelIdeal.KValue Cert.KernelIdeal.KBlocks

/-! ## Every grid point -/

variable (m : (ℓ : Loc nD τ sig) → Buf (Elt Ideal) ℓ)

/-- Points with the same batch·head have the same batch and head. -/
theorem bOf_succ (n : ℕ) (h0 : ¬(n + 1) % 4 = 0) : bOf (n + 1) = bOf n := Fin.ext (by show (n + 1) / 64 % 4 = n / 64 % 4; omega)
theorem hOf_succ (n : ℕ) (h0 : ¬(n + 1) % 4 = 0) : hOf (n + 1) = hOf n := Fin.ext (by show (n + 1) / 4 % 16 = n / 4 % 16; omega)

set_option maxHeartbeats 1000000 in
/-- After every point the carried buffers hold the recursion after that point's tile. -/
theorem holds_at (c : Dev nD) : ∀ (n : ℕ) (hn : n < cfg0.N),
    Holds (m ((c : Thread nD τ).loc main_arg0)) (m ((c : Thread nD τ).loc main_arg1)) (m ((c : Thread nD τ).loc main_arg2))
      (bOf n) (hOf n) (n % 4) (outsAt0 m c n hn).2.1 (outsAt0 m c n hn).2.2.1 (outsAt0 m c n hn).2.2.2
  | 0, hn => by
    have h0 : (⟨0, hn⟩ : Fin cfg0.N).val % 4 = 0 := rfl
    have h1 : ¬(⟨0, hn⟩ : Fin cfg0.N).val % 4 = 3 := by show ¬((0 : ℕ) % 4 = 3); decide
    have key := holds_A (m ((c : Thread nD τ).loc main_arg0)) (m ((c : Thread nD τ).loc main_arg1)) (m ((c : Thread nD τ).loc main_arg2)) (bOf 0) (hOf 0) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) (iblk m c 0 ⟨0, hn⟩) (iblk m c 1 ⟨0, hn⟩) (iblk m c 2 ⟨0, hn⟩)
      ((hcond0_0 ⟨0, hn⟩).mpr h0) (fun h => h1 ((hcond0_1 ⟨0, hn⟩).mp h))
      (fun r d => blkQ m c ⟨0, hn⟩ r d) (fun k d => blkK m c ⟨0, hn⟩ k d) (fun k d => blkV m c ⟨0, hn⟩ k d)
    rw [outsAt0_A m c ⟨0, hn⟩ h0 h1]
    dsimp only
    exact key
  | n + 1, hn => by
    have hN : n + 1 < 256 := lt_of_lt_of_eq hn (show cfg0.N = 256 from N_0)
    have ih := holds_at c n (Nat.lt_of_succ_lt hn)
    by_cases h0 : (n + 1) % 4 = 0
    · have h1 : ¬(n + 1) % 4 = 3 := by omega
      have key := holds_A (m ((c : Thread nD τ).loc main_arg0)) (m ((c : Thread nD τ).loc main_arg1)) (m ((c : Thread nD τ).loc main_arg2)) (bOf (n + 1)) (hOf (n + 1)) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (iblk m c 0 ⟨n + 1, hn⟩) (iblk m c 1 ⟨n + 1, hn⟩) (iblk m c 2 ⟨n + 1, hn⟩)
        ((hcond0_0 ⟨n + 1, hn⟩).mpr h0) (fun h => h1 ((hcond0_1 ⟨n + 1, hn⟩).mp h))
        (fun r d => blkQ m c ⟨n + 1, hn⟩ r d)
        (fun k d => (blkK m c ⟨n + 1, hn⟩ k d).trans (by rw [show (⟨n + 1, hn⟩ : Fin cfg0.N).val % 4 = 0 from h0]))
        (fun k d => (blkV m c ⟨n + 1, hn⟩ k d).trans (by rw [show (⟨n + 1, hn⟩ : Fin cfg0.N).val % 4 = 0 from h0]))
      rw [h0, outsAt0_A m c ⟨n + 1, hn⟩ h0 h1]
      dsimp only
      exact key
    · have hj : (n + 1) % 4 = n % 4 + 1 := by omega
      have hx0 : ∀ r d, (iblk m c 0 ⟨n + 1, hn⟩ : Vec Ideal S1x2048x64 .f32) (ix3 (0 : Fin 1) r d) = (m ((c : Thread nD τ).loc main_arg0)) (ix4 (bOf n) (hOf n) r d) :=
        fun r d => (blkQ m c ⟨n + 1, hn⟩ r d).trans (by rw [show bOf (⟨n + 1, hn⟩ : Fin cfg0.N).val = bOf n from bOf_succ n h0, show hOf (⟨n + 1, hn⟩ : Fin cfg0.N).val = hOf n from hOf_succ n h0])
      have hx1 : ∀ k d, (iblk m c 1 ⟨n + 1, hn⟩ : Vec Ideal S1x512x64 .f32) (ix3 (0 : Fin 1) k d) = (m ((c : Thread nD τ).loc main_arg1)) (ix4 (bOf n) (hOf n) (Attn.tileIx (n % 4 + 1) k) d) :=
        fun k d => (blkK m c ⟨n + 1, hn⟩ k d).trans (by rw [show bOf (⟨n + 1, hn⟩ : Fin cfg0.N).val = bOf n from bOf_succ n h0, show hOf (⟨n + 1, hn⟩ : Fin cfg0.N).val = hOf n from hOf_succ n h0, show (⟨n + 1, hn⟩ : Fin cfg0.N).val % 4 = n % 4 + 1 from hj])
      have hx2 : ∀ k d, (iblk m c 2 ⟨n + 1, hn⟩ : Vec Ideal S1x512x64 .f32) (ix3 (0 : Fin 1) k d) = (m ((c : Thread nD τ).loc main_arg2)) (ix4 (bOf n) (hOf n) (Attn.tileIx (n % 4 + 1) k) d) :=
        fun k d => (blkV m c ⟨n + 1, hn⟩ k d).trans (by rw [show bOf (⟨n + 1, hn⟩ : Fin cfg0.N).val = bOf n from bOf_succ n h0, show hOf (⟨n + 1, hn⟩ : Fin cfg0.N).val = hOf n from hOf_succ n h0, show (⟨n + 1, hn⟩ : Fin cfg0.N).val % 4 = n % 4 + 1 from hj])
      rw [bOf_succ n h0, hOf_succ n h0, hj]
      by_cases h1 : (n + 1) % 4 = 3
      · have key := holds_C (m ((c : Thread nD τ).loc main_arg0)) (m ((c : Thread nD τ).loc main_arg1)) (m ((c : Thread nD τ).loc main_arg2)) (bOf n) (hOf n) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (iblk m c 0 ⟨n + 1, hn⟩) (iblk m c 1 ⟨n + 1, hn⟩) (iblk m c 2 ⟨n + 1, hn⟩)
          (outsAt0 m c n (Nat.lt_of_succ_lt hn)).2.1 (outsAt0 m c n (Nat.lt_of_succ_lt hn)).2.2.1 (outsAt0 m c n (Nat.lt_of_succ_lt hn)).2.2.2 (n % 4)
          (fun h => h0 ((hcond0_0 ⟨n + 1, hn⟩).mp h)) ((hcond0_1 ⟨n + 1, hn⟩).mpr h1) ih hx0 hx1 hx2
        rw [outsAt0_C m c ⟨n + 1, hn⟩ h0 h1]
        dsimp only
        exact key
      · have key := holds_B (m ((c : Thread nD τ).loc main_arg0)) (m ((c : Thread nD τ).loc main_arg1)) (m ((c : Thread nD τ).loc main_arg2)) (bOf n) (hOf n) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (iblk m c 0 ⟨n + 1, hn⟩) (iblk m c 1 ⟨n + 1, hn⟩) (iblk m c 2 ⟨n + 1, hn⟩)
          (outsAt0 m c n (Nat.lt_of_succ_lt hn)).2.1 (outsAt0 m c n (Nat.lt_of_succ_lt hn)).2.2.1 (outsAt0 m c n (Nat.lt_of_succ_lt hn)).2.2.2 (n % 4)
          (fun h => h0 ((hcond0_0 ⟨n + 1, hn⟩).mp h)) (fun h => h1 ((hcond0_1 ⟨n + 1, hn⟩).mp h)) ih hx0 hx1 hx2
        rw [outsAt0_B m c ⟨n + 1, hn⟩ h0 h1]
        dsimp only
        exact key

set_option maxHeartbeats 1000000 in
/-- At the last tile of a batch·head the output block holds the online form's result, row by row. -/
theorem out_at (c : Dev nD) (n : ℕ) (hn : n < cfg0.N) (h3 : n % 4 = 3) (r : Fin 2048) (d : Fin 64) :
    (outsAt0 m c n hn).1 (ix3 (0 : Fin 1) r d)
      = Attn.online (Attn.score cs (m ((c : Thread nD τ).loc main_arg0)) (m ((c : Thread nD τ).loc main_arg1)) (bOf n) (hOf n) r)
          (Attn.vcol (m ((c : Thread nD τ).loc main_arg2)) (bOf n) (hOf n) d) := by
  obtain ⟨n, rfl⟩ : ∃ k, n = k + 1 := ⟨n - 1, by omega⟩
  have hN : n + 1 < 256 := lt_of_lt_of_eq hn (show cfg0.N = 256 from N_0)
  have h0 : ¬(n + 1) % 4 = 0 := by omega
  have hj : (n + 1) % 4 = n % 4 + 1 := by omega
  have hj3 : n % 4 + 1 = 3 := by omega
  have ih := holds_at m c n (Nat.lt_of_succ_lt hn)
  have hx0 : ∀ r d, (iblk m c 0 ⟨n + 1, hn⟩ : Vec Ideal S1x2048x64 .f32) (ix3 (0 : Fin 1) r d) = (m ((c : Thread nD τ).loc main_arg0)) (ix4 (bOf n) (hOf n) r d) :=
    fun r d => (blkQ m c ⟨n + 1, hn⟩ r d).trans (by rw [show bOf (⟨n + 1, hn⟩ : Fin cfg0.N).val = bOf n from bOf_succ n h0, show hOf (⟨n + 1, hn⟩ : Fin cfg0.N).val = hOf n from hOf_succ n h0])
  have hx1 : ∀ k d, (iblk m c 1 ⟨n + 1, hn⟩ : Vec Ideal S1x512x64 .f32) (ix3 (0 : Fin 1) k d) = (m ((c : Thread nD τ).loc main_arg1)) (ix4 (bOf n) (hOf n) (Attn.tileIx (n % 4 + 1) k) d) :=
    fun k d => (blkK m c ⟨n + 1, hn⟩ k d).trans (by rw [show bOf (⟨n + 1, hn⟩ : Fin cfg0.N).val = bOf n from bOf_succ n h0, show hOf (⟨n + 1, hn⟩ : Fin cfg0.N).val = hOf n from hOf_succ n h0, show (⟨n + 1, hn⟩ : Fin cfg0.N).val % 4 = n % 4 + 1 from hj])
  have hx2 : ∀ k d, (iblk m c 2 ⟨n + 1, hn⟩ : Vec Ideal S1x512x64 .f32) (ix3 (0 : Fin 1) k d) = (m ((c : Thread nD τ).loc main_arg2)) (ix4 (bOf n) (hOf n) (Attn.tileIx (n % 4 + 1) k) d) :=
    fun k d => (blkV m c ⟨n + 1, hn⟩ k d).trans (by rw [show bOf (⟨n + 1, hn⟩ : Fin cfg0.N).val = bOf n from bOf_succ n h0, show hOf (⟨n + 1, hn⟩ : Fin cfg0.N).val = hOf n from hOf_succ n h0, show (⟨n + 1, hn⟩ : Fin cfg0.N).val % 4 = n % 4 + 1 from hj])
  have key := out_C (m ((c : Thread nD τ).loc main_arg0)) (m ((c : Thread nD τ).loc main_arg1)) (m ((c : Thread nD τ).loc main_arg2)) (bOf n) (hOf n) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (iblk m c 0 ⟨n + 1, hn⟩) (iblk m c 1 ⟨n + 1, hn⟩) (iblk m c 2 ⟨n + 1, hn⟩)
    (outsAt0 m c n (Nat.lt_of_succ_lt hn)).2.1 (outsAt0 m c n (Nat.lt_of_succ_lt hn)).2.2.1 (outsAt0 m c n (Nat.lt_of_succ_lt hn)).2.2.2 (n % 4)
    (fun h => h0 ((hcond0_0 ⟨n + 1, hn⟩).mp h)) ((hcond0_1 ⟨n + 1, hn⟩).mpr h3) ih hx0 hx1 hx2 r d
  rw [hj3] at key
  rw [bOf_succ n h0, hOf_succ n h0, outsAt0_C m c ⟨n + 1, hn⟩ h0 h3]
  dsimp only
  exact key

end Cert.KernelIdeal.KInv

end
-- ==== Proof.KFinal.lean ====
/-
  From the blocks to the result.  Only the last tile of each batch·head writes its output block back,
  and those 64 blocks tile the [64, 2048, 64] array; so the array ends holding, at (p, r, d), the online
  attention of row `r`, column `d` of batch·head `p`.  The result is that array with the batch·head
  axis split again into batch and head.
-/
import proofs.«132326_j64252710748215_2_alg».proof.Proof.Gen.KernelIdeal.Frame
import proofs.«132326_j64252710748215_2_alg».proof.Proof.Spec
import proofs.«132326_j64252710748215_2_alg».proof.Proof.KBlocks
import proofs.«132326_j64252710748215_2_alg».proof.Proof.KInv
import Idealize.ShloMosaic.Lib.Pipeline.Value
import Idealize.ShloMosaic.Lib.StableHlo.Run

set_option maxRecDepth 16384

noncomputable section

namespace Cert.KernelIdeal.KFinal

open Cert.KernelIdeal Cert.KernelIdeal.Gen Idealize.ShloMosaic Idealize.ShloMosaic.TcCoe Idealize.SL.Sem
open Idealize.ShloMosaic.ValueIdx Idealize.ShloMosaic.StableHlo Cert.KernelIdeal.KBlocks Cert.KernelIdeal.KInv
open Idealize.ShloMosaic.Pipeline (Dat)

variable (m : (ℓ : Loc nD τ sig) → Buf (Elt Ideal) ℓ) (ρ : Dev nD → PrngReg)

/-- The online attention of batch·head `p` at row `r`, column `d` (point `4 p + 3` is its last tile). -/
def Gp (c : Dev nD) (p : ℕ) (r : Fin 2048) (d : Fin 64) : EReal :=
  Attn.online (Attn.score cs (m ((c : Thread nD τ).loc main_arg0)) (m ((c : Thread nD τ).loc main_arg1)) (bOf (4 * p + 3)) (hOf (4 * p + 3)) r)
    (Attn.vcol (m ((c : Thread nD τ).loc main_arg2)) (bOf (4 * p + 3)) (hOf (4 * p + 3)) d)

/-- What the region's result array ends holding. -/
def G3 (c : Dev nD) : Buf (Elt Ideal) ((c : Thread nD τ).loc main_v3) :=
  fun i => Gp m c (i 0).val ⟨(i 1).val, (i 1).isLt⟩ ⟨(i 2).val, (i 2).isLt⟩

/-- An index of a [1, 2048, 64] block is (0, row, column). -/
theorem idx_split (y : S1x2048x64.Idx) :
    y = ix3 (0 : Fin 1) (⟨(y 1).val, (y 1).isLt⟩ : Fin 2048) (⟨(y 2).val, (y 2).isLt⟩ : Fin 64) := by
  funext a; apply Fin.ext
  match a with
  | ⟨0, _⟩ => show (y 0).val = 0; have h : (y 0).val < 1 := (y 0).isLt; omega
  | ⟨1, _⟩ => rfl
  | ⟨2, _⟩ => rfl

/-- What a writing point writes back is its block of `G3`. -/
theorem flushed_eq (c : Dev nD) (t : Fin cfg0.N) (hf : (cfg0.win 3).flush t = true) :
    (dats m 0 c).flushed 3 t = ((cfg0.win 3).blk t).view.read (Elt Ideal) (G3 m c) := by
  have h3 : t.val % 4 = 3 := (flush0_3 t).mp hf
  have hN : t.val < 256 := lt_of_lt_of_eq t.isLt (show cfg0.N = 256 from N_0)
  obtain ⟨-, -, -, -, -, -, -, -, -, e0, e1, e2⟩ := idx_facts t
  show (cfg0.win 3).cut (grid0.coords t) ((dats m 0 c).after 3 t) = _
  rw [after0_3]
  funext y
  show (outsAt0 m c t.val t.isLt).1 y = G3 m c (((cfg0.win 3).blk t).view.emb y)
  refine (congrArg (outsAt0 m c t.val t.isLt).1 (idx_split y)).trans ((out_at m c t.val t.isLt h3 _ _).trans ?_)
  have k3 : 4 * (t.val / 4) + 3 = t.val := by omega
  have hy0 : (y 0).val < 1 := (y 0).isLt
  have k0 : ((((cfg0.win 3).blk t).view.emb y) 0).val = t.val / 4 := by
    show win0_3.index t (0 : Fin 3) * 1 + 1 * (y 0).val = t.val / 4; omega
  have k1 : ((((cfg0.win 3).blk t).view.emb y) 1).val = (y 1).val := by
    show win0_3.index t (1 : Fin 3) * 2048 + 1 * (y 1).val = (y 1).val; omega
  have k2 : ((((cfg0.win 3).blk t).view.emb y) 2).val = (y 2).val := by
    show win0_3.index t (2 : Fin 3) * 64 + 1 * (y 2).val = (y 2).val; omega
  unfold G3 Gp
  simp only [k0, k1, k2, k3]

/-- Membership in a block of the result array, coordinate by coordinate. -/
theorem mem_blk (c : Dev nD) (t : Fin cfg0.N) (i : ((cfg0.win 3).arr.view.loc (c.tc : Thread nD τ)).2.ty.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v3).slice (win0_3.rect t)).set ↔ _
  rw [View.set_slice_whole, Rect.mem_set_unit]
  exact Iff.rfl

/-- Every entry of the result array lies in the block of its batch·head's last point. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  have hN : cfg0.N = 256 := N_0
  have ht : 4 * (i 0).val + 3 < cfg0.N := by rw [hN]; omega
  refine ⟨⟨4 * (i 0).val + 3, ht⟩, (flush0_3 _).mpr (by show (4 * (i 0).val + 3) % 4 = 3; omega), ?_⟩
  obtain ⟨-, -, -, -, -, -, -, -, -, e0, e1, e2⟩ := idx_facts ⟨4 * (i 0).val + 3, ht⟩
  have e0' : win0_3.index ⟨4 * (i 0).val + 3, ht⟩ (0 : Fin 3) = (4 * (i 0).val + 3) / 4 := e0
  rw [mem_blk]
  intro a
  match a with
  | ⟨0, _⟩ =>
    show win0_3.index ⟨4 * (i 0).val + 3, ht⟩ (0 : Fin 3) * 1 ≤ (i 0).val ∧ (i 0).val < win0_3.index ⟨4 * (i 0).val + 3, ht⟩ (0 : Fin 3) * 1 + 1
    omega
  | ⟨1, _⟩ =>
    show win0_3.index ⟨4 * (i 0).val + 3, ht⟩ (1 : Fin 3) * 2048 ≤ (i 1).val ∧ (i 1).val < win0_3.index ⟨4 * (i 0).val + 3, ht⟩ (1 : Fin 3) * 2048 + 2048
    omega
  | ⟨2, _⟩ =>
    show win0_3.index ⟨4 * (i 0).val + 3, ht⟩ (2 : Fin 3) * 64 ≤ (i 2).val ∧ (i 2).val < win0_3.index ⟨4 * (i 0).val + 3, ht⟩ (2 : Fin 3) * 64 + 64
    omega

/-- The region's result array after the run. -/
theorem final (c : Dev nD) : (dats m 0 c).arrAt 3 cfg0.N = G3 m c :=
  (dats m 0 c).arrAt_eq_of_cover 3 (G3 m c) (flushed_eq m c) (cover c)

/-- The program's result: the region's array with batch·head split into batch and head. -/
theorem tail_eq (c : Dev nD) :
    Pipeline.afterTail₀ cfgs (dats m) 0 (V0 m) [hostOps1] c main_v4
      = shapeCast S4x16x2048x64 (G3 m c) shapeCasts_S64x2048x64_S4x16x2048x64 := by
  unfold Pipeline.afterTail₀
  show StableHlo.after hostOps1 _ (Proc.devRef .tc main_v4) = _
  after_results
  exact congrArg (fun x => shapeCast S4x16x2048x64 x shapeCasts_S64x2048x64_S4x16x2048x64)
    ((Pipeline.withArrays_arr spec0 launch0.win.arr_inj c _ _ 3).trans (final m c))

/-- Entry (b, h, q, d) of the result is the online attention there. -/
theorem result_apply (c : Dev nD) (i : S4x16x2048x64.Idx) :
    shapeCast S4x16x2048x64 (G3 m c) shapeCasts_S64x2048x64_S4x16x2048x64 i
      = Attn.attnOnline cs (m ((c : Thread nD τ).loc main_arg0)) (m ((c : Thread nD τ).loc main_arg1)) (m ((c : Thread nD τ).loc main_arg2)) i := by
  obtain ⟨b, h, q, d, rfl⟩ : ∃ (b : Fin 4) (h : Fin 16) (q : Fin 2048) (d : Fin 64), i = ix4 b h q d := ⟨i 0, i 1, i 2, i 3, eq_ix4 i⟩
  have hb := b.isLt
  have hh := h.isLt
  rw [shapeCast_apply (s := S64x2048x64) (t := S4x16x2048x64) (G3 m c) shapeCasts_S64x2048x64_S4x16x2048x64 (ix4 b h q d) (ix3 (⟨16 * b.val + h.val, by omega⟩ : Fin 64) q d) (by
    rw [Shape.rowMajor_val_three, Shape.rowMajor_val_four]
    show ((16 * b.val + h.val) * 2048 + q.val) * 64 + d.val = ((b.val * 16 + h.val) * 2048 + q.val) * 64 + d.val
    omega)]
  have eb : bOf (4 * (16 * b.val + h.val) + 3) = b := Fin.ext (by show (4 * (16 * b.val + h.val) + 3) / 64 % 4 = b.val; omega)
  have eh : hOf (4 * (16 * b.val + h.val) + 3) = h := Fin.ext (by show (4 * (16 * b.val + h.val) + 3) / 4 % 16 = h.val; omega)
  show Gp m c (16 * b.val + h.val) q d = _
  unfold Gp Attn.attnOnline
  rw [eb, eh]

/-- The kernel's run, read: the result holds the online attention of the arguments, entry by entry, and
    the arguments are unchanged. -/
theorem run : θ_run defs (onTc (τ := τ) (main (F := Ideal))) ⟨m, fun _ => 0, ρ⟩ fun r => ∀ c : Dev nD,
      r.2.mem ((c.tc : Thread nD τ).loc main_v4)
        = (fun i => Attn.attnOnline cs (m ((c : Thread nD τ).loc main_arg0)) (m ((c : Thread nD τ).loc main_arg1)) (m ((c : Thread nD τ).loc main_arg2)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans
        ((tail_eq m c).trans (funext (result_apply m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KFinal

end
-- ==== Proof.lean ====
/-
  Scaled dot-product attention: a kernel that sweeps the keys in four tiles of 512 per batch·head,
  carrying a running maximum, normaliser and accumulator (the online softmax), against the two-pass
  softmax of the reference.  Over the extended reals, with every input finite, both compute
      ∑ k, exp (s k - M) / (∑ j, exp (s j - M)) · v k,   s k = (q · k_k) · 4096,   M = max s:
  the kernel's side is read off the generated frame run (KFinal.lean, over KInv.lean's induction on
  the grid point), the reference's off its generated run (RefSide.lean), and the two forms are equal
  on finite data (OnlineSoftmax.lean); the reference's division by 1 / (64 · 64) is the kernel's
  product with 4096 on every extended real.  The ideal pass rewrote nothing.
-/
import proofs.«132326_j64252710748215_2_alg».proof.Defs
import proofs.«132326_j64252710748215_2_alg».proof.Proof.Gen.Kernel
import proofs.«132326_j64252710748215_2_alg».proof.Proof.Gen.Kernel.Frame
import proofs.«132326_j64252710748215_2_alg».proof.Proof.Gen.KernelIdeal
import proofs.«132326_j64252710748215_2_alg».proof.Proof.Gen.KernelIdeal.Frame
import proofs.«132326_j64252710748215_2_alg».proof.Proof.Gen.ReferenceIdeal
import proofs.«132326_j64252710748215_2_alg».proof.Proof.Gen.Pre_finite_inputs
import proofs.«132326_j64252710748215_2_alg».proof.Proof.Gen.ReferenceIdeal.Run
import proofs.«132326_j64252710748215_2_alg».proof.Proof.Gen.ReferenceIdeal.Read
import proofs.«132326_j64252710748215_2_alg».proof.Proof.Spec
import proofs.«132326_j64252710748215_2_alg».proof.Proof.OnlineSoftmax
import proofs.«132326_j64252710748215_2_alg».proof.Proof.RefSide
import proofs.«132326_j64252710748215_2_alg».proof.Proof.Finite
import proofs.«132326_j64252710748215_2_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- With finite inputs every score row and every value column is real, so the online form the kernel
    computes and the two-pass form the reference computes agree at every entry of the result. -/
theorem algebraic : Cert.algebraic_KernelIdeal_ReferenceIdeal := by
  intro m ρ m' ρ' hpre hagree
  refine ⟨fun c => fun i => Attn.attnOnline (Ideal.ofBits .f32 0x45800000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) i,
    Cert.KernelIdeal.KFinal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  obtain ⟨hQ, hK, hV⟩ := Cert.Finite.real_of_pre _ _ _ (hpre c)
  funext i
  rw [Cert.ReferenceIdeal.RefValue.ref_eq]
  unfold Attn.attnTwoPass Attn.attnOnline
  rw [Cert.ReferenceIdeal.RefValue.ofBits_4096]
  exact (Attn.online_eq_twoPass _ _ (fun k => Cert.Finite.score_real 4096 _ _ hQ hK _ _ _ k)
    (fun k => Cert.Finite.vcol_real _ hV _ _ _ k)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
